-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S1x1 : Shape := ⟨2, ![1, 1]⟩
abbrev S1024x128 : Shape := ⟨2, ![1024, 128]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1x8x1024 : Shape := ⟨3, ![1, 8, 1024]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x1, .f32⟩
  | .hbm, ⟨3, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x1, .f32⟩
  | .local _ .vmem, ⟨5, _⟩ => ⟨S8x1024, .f32⟩
  | .local _ .vmem, ⟨6, _⟩ => ⟨S8x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v19 : BitVec 1 := Scalar.cmpi .eq arg1 c0_i32
  let v20 : BitVec 32 := Scalar.extui v19
  let c0_i32_9 : BitVec 32 := 0#32
  let v21 : BitVec 1 := Scalar.cmpi .ne v20 c0_i32_9
  v21

def k0_off1 (i : grid0.Coords) : Fin 2 → Nat :=
  let arg0 : BitVec 32 := BitVec.ofNat 32 (i 0).val
  let v36 : Index := Scalar.indexCast arg0
  let c0_18 : Index := 0#32
  ![v36.toNat, 0]
def k0_cond2 (i : grid0.Coords) : BitVec 1 :=
  let arg1 : BitVec 32 := BitVec.ofNat 32 (i 1).val
  let c0_i32_10 : BitVec 32 := 0#32
  let v22 : BitVec 1 := Scalar.cmpi .sgt arg1 c0_i32_10
  let v23 : BitVec 32 := Scalar.extui v22
  let c0_i32_11 : BitVec 32 := 0#32
  let v24 : BitVec 1 := Scalar.cmpi .ne v23 c0_i32_11
  v24

def k0_off2 (i : grid0.Coords) : Fin 2 → Nat :=
  let arg0 : BitVec 32 := BitVec.ofNat 32 (i 0).val
  let v36 : Index := Scalar.indexCast arg0
  let c0_18 : Index := 0#32
  ![v36.toNat, 0]
def k0_cond3 (i : grid0.Coords) : BitVec 1 :=
  let arg0 : BitVec 32 := BitVec.ofNat 32 (i 0).val
  let c0_i32_12 : BitVec 32 := 0#32
  let v25 : BitVec 1 := Scalar.cmpi .eq arg0 c0_i32_12
  let v26 : BitVec 32 := Scalar.extui v25
  let c0_i32_13 : BitVec 32 := 0#32
  let v27 : BitVec 1 := Scalar.cmpi .ne v26 c0_i32_13
  v27

def k0_off3 (i : grid0.Coords) : Fin 2 → Nat :=
  let arg1 : BitVec 32 := BitVec.ofNat 32 (i 1).val
  let v36 : Index := Scalar.indexCast arg1
  let c0_18 : Index := 0#32
  ![v36.toNat, 0]
def k0_cond4 (i : grid0.Coords) : BitVec 1 :=
  let arg0 : BitVec 32 := BitVec.ofNat 32 (i 0).val
  let c0_i32_14 : BitVec 32 := 0#32
  let v28 : BitVec 1 := Scalar.cmpi .sgt arg0 c0_i32_14
  let v29 : BitVec 32 := Scalar.extui v28
  let c0_i32_15 : BitVec 32 := 0#32
  let v30 : BitVec 1 := Scalar.cmpi .ne v29 c0_i32_15
  v30

def k0_off4 (i : grid0.Coords) : Fin 2 → Nat :=
  let arg1 : BitVec 32 := BitVec.ofNat 32 (i 1).val
  let v36 : Index := Scalar.indexCast arg1
  let c0_18 : Index := 0#32
  ![v36.toNat, 0]
def k0_cond5 (i : grid0.Coords) : BitVec 1 :=
  let arg0 : BitVec 32 := BitVec.ofNat 32 (i 0).val
  let c7_i32 : BitVec 32 := 7#32
  let v31 : BitVec 1 := Scalar.cmpi .eq arg0 c7_i32
  let arg1 : BitVec 32 := BitVec.ofNat 32 (i 1).val
  let c7_i32_16 : BitVec 32 := 7#32
  let v32 : BitVec 1 := Scalar.cmpi .eq arg1 c7_i32_16
  let v33 : BitVec 1 := Scalar.andi v31 v32
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  h_S1x1024 : 0 < S1x1024.numel
  shapeCasts_S1x1024_S1024 : S1x1024.ShapeCasts S1024
  inb_S8x1024_S8x1024_0_0 : ∀ a, (![0, 0] : Fin 2 → Nat) a + S8x1024.size a ≤ S8x1024.size a
  h_S8x1024 : 0 < S8x1024.numel
  shapeCasts_S8x1024_S1x8x1024 : S8x1024.ShapeCasts S1x8x1024
  reduces_S1x8x1024_S1 : S1x8x1024.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S1024x128_S1024x128_S1024x1024_1_1_0_0_n_n_wf : DotDims.WF S1024x128 S1024x128 S1024x1024 [1] [1] [0] [0] [] []
  hrank0 : 0 < grid0.rank
  k0_off1_inb : ∀ i : grid0.Coords, ∀ (k0_h1 : k0_cond1 i = 1#1), ∀ a, (k0_off1 i) a + S1x1024.size a ≤ S8x1024.size a
  k0_off2_inb : ∀ i : grid0.Coords, ∀ (k0_h2 : k0_cond2 i = 1#1), ∀ a, (k0_off2 i) a + S1x1024.size a ≤ S8x1024.size a
  k0_off3_inb : ∀ i : grid0.Coords, ∀ (k0_h3 : k0_cond3 i = 1#1), ∀ a, (k0_off3 i) a + S1x1024.size a ≤ S8x1024.size a
  k0_off4_inb : ∀ i : grid0.Coords, ∀ (k0_h4 : k0_cond4 i = 1#1), ∀ a, (k0_off4 i) a + S1x1024.size a ≤ S8x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond5 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S1 : Shape := ⟨1, ![1]⟩

abbrev nBuf : Space → Nat
  | .hbm => 36
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S128x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  reducesTo_S8192x8192_S8192_d0 : S8192x8192.ReducesTo [0] S8192
  reducesTo_S8192_S_d0 : S8192.ReducesTo [0] S_
  bcast_S_S1 : S_.BroadcastsInDim S1 (![] : Fin 0 → Fin S1.rank)
  reducesTo_S1_S_d0 : S1.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KernelBody.Shared.lean ====
/-
  What the five control cases of the tile body share.

  The grid is 8 x 8, point t = 8 i + j. The body's five conditionals test j = 0, j > 0, i = 0, i > 0 and
  (i, j) = (7, 7); over the 64 points they hold exactly where t % 8 = 0, t % 8 ≠ 0, t < 8, 8 ≤ t and t = 63.
  The output window is stored, and written back, at the last point only; the two inputs are never idle.
  The two scratch buffers (the running row minima and the running column minima) are whole scoped buffers the
  pipeline does not stage: the region's invariant holds them, each at some contents, beside the generator register.
-/
import proofs.«130655_g82575041233285_cont_9to1c4b_482_3_alg».proof.Proof.Gen.Kernel.Frame
import proofs.«130655_g82575041233285_cont_9to1c4b_482_3_alg».proof.Proof.Gen.Kernel.Skeleton
import Idealize.ShloMosaic.Lib.WritesUnit
import Idealize.ShloMosaic.Lib.WholeRead
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditionals, decided over the grid -/

theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
theorem hcond2 : ∀ t : Fin cfg0.N, k0_cond2 (grid0.coords t) = 1#1 ↔ ¬t.val % 8 = 0 :=
  (by decide +kernel : ∀ t : Fin grid0.N, k0_cond2 (grid0.coords t) = 1#1 ↔ ¬t.val % 8 = 0)
theorem hcond3 : ∀ t : Fin cfg0.N, k0_cond3 (grid0.coords t) = 1#1 ↔ t.val < 8 :=
  (by decide +kernel : ∀ t : Fin grid0.N, k0_cond3 (grid0.coords t) = 1#1 ↔ t.val < 8)
theorem hcond4 : ∀ t : Fin cfg0.N, k0_cond4 (grid0.coords t) = 1#1 ↔ ¬t.val < 8 :=
  (by decide +kernel : ∀ t : Fin grid0.N, k0_cond4 (grid0.coords t) = 1#1 ↔ ¬t.val < 8)
theorem hcond5 : ∀ t : Fin cfg0.N, k0_cond5 (grid0.coords t) = 1#1 ↔ t.val = 63 :=
  (by decide +kernel : ∀ t : Fin grid0.N, k0_cond5 (grid0.coords t) = 1#1 ↔ t.val = 63)

/-- The grid coordinates of point t are (t / 8, t % 8). -/
theorem coords0 : ∀ t : Fin cfg0.N, ((grid0.coords t) 0).val = t.val / 8 :=
  (by decide +kernel : ∀ t : Fin grid0.N, ((grid0.coords t) 0).val = t.val / 8)
theorem coords1 : ∀ t : Fin cfg0.N, ((grid0.coords t) 1).val = t.val % 8 :=
  (by decide +kernel : ∀ t : Fin grid0.N, ((grid0.coords t) 1).val = t.val % 8)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
/-- Away from the last point the output window is idle and is not written back. -/
theorem idleAt2 : ∀ t : Fin cfg0.N, ¬t.val = 63 → cfg0.idle 2 (grid0.coords t) = true := by decide +kernel
theorem noFlush2 : ∀ t : Fin cfg0.N, ¬t.val = 63 → (cfg0.win 2).flush t = false := by decide +kernel
/-- At the last point it is stored. -/
theorem liveAt2 : ∀ t : Fin cfg0.N, t.val = 63 → cfg0.idle 2 (grid0.coords t) = false := by decide +kernel

/-! ## The memrefs the body is called with -/

abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
/-- The scratch of running row minima and the scratch of running column minima. -/
abbrev sc0 : Memref sig .tc .vmem S8x1024 .f32 := Memref.whole cc0_scratch0
abbrev sc1 : Memref sig .tc .vmem S8x1024 .f32 := Memref.whole cc0_scratch1
abbrev VS0 : View sig .tc .vmem S8x1024 .f32 := sc0.view
abbrev VS1 : View sig .tc .vmem S8x1024 .f32 := sc1.view

/-- The class invariant, with the two scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## Rows of an 8 x 1024 scratch -/

open Idealize.ShloMosaic.ValueIdx

/-- Row `o` of an 8 x 1024 array, as a 1 x 1024 array. -/
def rowOf (v : Vec F S8x1024 .f32) (o : Fin 8) : Vec F S1x1024 .f32 := fun y => v (ix2 o (y 1))

/-- The array `v` with row `o` replaced by the 1 x 1024 array `w`. -/
def setRow (v : Vec F S8x1024 .f32) (o : ℕ) (w : Vec F S1x1024 .f32) : Vec F S8x1024 .f32 :=
  fun Y => if (Y 0).val = o then w (ix2 (0 : Fin 1) (Y 1)) else v Y

/-- A 1 x 1024 index has row coordinate 0. -/
theorem idx_row_zero (y : S1x1024.Idx) : y = ix2 (0 : Fin 1) (y 1) := by
  have h := eq_ix2 y
  have h0 : (y 0 : Fin 1) = (0 : Fin 1) := Fin.ext (by
    have h1 : (y 0).val < 1 := (y 0).isLt
    show (y 0).val = 0
    omega)
  rw [h0] at h; exact h

/-- One store of a whole row at row offset `o`, read back: the contents before with that row replaced. -/
theorem read_rowStore {κ : Kind} {sp : Space} (v : View sig κ sp S8x1024 .f32) (f : v.ty.Contents (Elt F)) {off : Fin 2 → ℕ}
    (inb : ∀ a, off a + S1x1024.size a ≤ S8x1024.size a) (w : Vec F S1x1024 .f32) (o : ℕ) (hoff : off = ![o, 0]) :
    v.read (Elt F) (v.writes (Elt F) f [(⟨Rect.unit (s := S8x1024) off S1x1024.size inb, w⟩ : View.Piece (Elt F) S8x1024 .f32)])
      = setRow (v.read (Elt F) f) o w := by
  funext Y
  unfold setRow
  by_cases h : (Y 0).val = o
  · rw [if_pos h]
    exact View.read_writes_cons_rows_of_mem v f inb w [] Y (ix2 (0 : Fin 1) (Y 1)) hoff (by rw [h]; rfl) rfl
  · rw [if_neg h]
    rw [View.read_writes_cons_rows_of_not_mem v f inb w [] Y hoff (W := 1) rfl (by omega)]
    rfl

/-- A load of the whole row at row offset `o` reads that row of the contents. -/
theorem read_rowLoad {κ : Kind} {sp : Space} (v : View sig κ sp S8x1024 .f32) (f : v.ty.Contents (Elt F)) {off : Fin 2 → ℕ}
    (inb : ∀ a, off a + S1x1024.size a ≤ S8x1024.size a) (o : Fin 8) (hoff : off = ![o.val, 0]) :
    v.readAt (Elt F) (Rect.unit (s := S8x1024) off S1x1024.size inb).toLoadRect f = rowOf (v.read (Elt F) f) o := by
  subst hoff
  funext y
  unfold rowOf
  show v.read (Elt F) f ((Rect.unit (s := S8x1024) ![o.val, 0] S1x1024.size inb).emb y) = _
  refine congrArg _ (funext fun a => Fin.ext ?_)
  match a with
  | ⟨0, _⟩ =>
    show o.val + 1 * (y 0).val = o.val
    have : (y 0).val < 1 := (y 0).isLt
    omega
  | ⟨1, _⟩ =>
    show 0 + 1 * (y 1).val = (y 1).val
    omega

/-- A load of a whole block through a whole memref held at the raw contents that read `x` reads `x`. -/
theorem read_wholeLoad {S : Shape} {m : Memref sig .tc .vmem S .f32} (h : m.IsWhole) {off : Fin S.rank → ℕ} (hz : off = fun _ => 0)
    (inb : ∀ a, off a + S.size a ≤ S.size a) (x : Vec F S .f32) :
    m.view.readAt (Elt F) (Rect.unit (s := S) off S.size inb).toLoadRect (h.unread x) = x := by
  rw [View.readAt_eq_ld, h.read_unread, View.ld_unit_zero hz]

theorem zero2 : (![0, 0] : Fin 2 → ℕ) = fun _ => 0 := by
  funext a; match a with | ⟨0, _⟩ => rfl | ⟨1, _⟩ => rfl

end Cert.Kernel.Body

end
-- ==== Proof.KernelBody.RunA.lean ====
/-
  The tile body at the first grid point (j = 0 and i = 0): row i of the row-minima scratch and row j of the column-minima scratch are both stored afresh.
  The body is run once, symbolically, on whole memrefs: the two input blocks at their contents, the two scratch
  buffers at any contents. It ends with the inputs as they were and each scratch at its contents before with the
  one row the case stores replaced.
-/
import proofs.«130655_g82575041233285_cont_9to1c4b_482_3_alg».proof.Proof.KernelBody.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runA (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S8x1024 .f32) (harg5 : arg5.IsWhole) (arg6 : Memref sig .tc .vmem S8x1024 .f32) (harg6 : arg6.IsWhole)
    (hc1 : k0_cond1 i = 1#1) (hc2 : ¬k0_cond2 i = 1#1) (hc3 : k0_cond3 i = 1#1) (hc4 : ¬k0_cond4 i = 1#1) (hc5 : ¬k0_cond5 i = 1#1)
    (x0 x1 : Vec F S1024x128 .f32) (v0 v1 : Vec F S8x1024 .f32) (xi2 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare v0 ∗ owns (c : Thread nD τ) arg6 fullShare v1
        ∗ (iprop(owns (c : Thread nD τ) arg2 fullShare x0 ∗ owns (c : Thread nD τ) arg3 fullShare x1 ∗ owns (c : Thread nD τ) arg4 fullShare xi2
            ∗ owns (c : Thread nD τ) arg5 fullShare (setRow v0 (i 0).val (k0_pay5 x0 x1))
            ∗ owns (c : Thread nD τ) arg6 fullShare (setRow v1 (i 1).val (k0_pay7 x0 x1))) -∗ K ⟨⟩))
      ⊢ wp frame (wpE (defs₀ (F := F)) Variants.none c none) E (cc0__chamfer_tile i arg2 harg2 arg3 harg3 arg4 harg4 arg5 harg5 arg6 harg6) K := by
  simp only [cc0__chamfer_tile_eq_skeleton]; unfold cc0__chamfer_tile_skel
  simp only [k0_part1_eq_skeleton]
  unfold owns
  iintro ⟨⟨%f0, %hf0, H0⟩, ⟨%f1, %hf1, H1⟩, ⟨%f2, %hf2, H2⟩, ⟨%f5, %hf5, HS0⟩, ⟨%f6, %hf6, HS1⟩, Hk⟩
  obtain rfl := harg2.eq_unread hf0; obtain rfl := harg3.eq_unread hf1
  sl_exec (disch := first | exact hc1 | exact hc2 | exact hc3 | exact hc4 | exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [HS0]
  · iexists _; isplitr
    swap; · iexact HS0
    ipureintro
    refine (read_rowStore _ _ _ _ _ (k0_off1_eq i)).trans ?_
    rw [hf5, read_wholeLoad harg2 zero2, read_wholeLoad harg3 zero2]
  · iexists _; isplitr
    swap; · iexact HS1
    ipureintro
    refine (read_rowStore _ _ _ _ _ (k0_off3_eq i)).trans ?_
    rw [hf6, read_wholeLoad harg2 zero2, read_wholeLoad harg3 zero2]

end Cert.Kernel.Body

end
-- ==== Proof.KernelBody.RunB.lean ====
/-
  The tile body at a point with j > 0 and i = 0: row i of the row-minima scratch is lowered by this tile's row minima, row j of the column-minima scratch is stored afresh.
  The body is run once, symbolically, on whole memrefs: the two input blocks at their contents, the two scratch
  buffers at any contents. It ends with the inputs as they were and each scratch at its contents before with the
  one row the case stores replaced.
-/
import proofs.«130655_g82575041233285_cont_9to1c4b_482_3_alg».proof.Proof.KernelBody.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runB (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S8x1024 .f32) (harg5 : arg5.IsWhole) (arg6 : Memref sig .tc .vmem S8x1024 .f32) (harg6 : arg6.IsWhole)
    (hc1 : ¬k0_cond1 i = 1#1) (hc2 : k0_cond2 i = 1#1) (hc3 : k0_cond3 i = 1#1) (hc4 : ¬k0_cond4 i = 1#1) (hc5 : ¬k0_cond5 i = 1#1)
    (x0 x1 : Vec F S1024x128 .f32) (v0 v1 : Vec F S8x1024 .f32) (xi2 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare v0 ∗ owns (c : Thread nD τ) arg6 fullShare v1
        ∗ (iprop(owns (c : Thread nD τ) arg2 fullShare x0 ∗ owns (c : Thread nD τ) arg3 fullShare x1 ∗ owns (c : Thread nD τ) arg4 fullShare xi2
            ∗ owns (c : Thread nD τ) arg5 fullShare (setRow v0 (i 0).val (k0_pay6 x0 x1 (rowOf v0 (i 0))))
            ∗ owns (c : Thread nD τ) arg6 fullShare (setRow v1 (i 1).val (k0_pay7 x0 x1))) -∗ K ⟨⟩))
      ⊢ wp frame (wpE (defs₀ (F := F)) Variants.none c none) E (cc0__chamfer_tile i arg2 harg2 arg3 harg3 arg4 harg4 arg5 harg5 arg6 harg6) K := by
  simp only [cc0__chamfer_tile_eq_skeleton]; unfold cc0__chamfer_tile_skel
  simp only [k0_part1_eq_skeleton]
  unfold owns
  iintro ⟨⟨%f0, %hf0, H0⟩, ⟨%f1, %hf1, H1⟩, ⟨%f2, %hf2, H2⟩, ⟨%f5, %hf5, HS0⟩, ⟨%f6, %hf6, HS1⟩, Hk⟩
  obtain rfl := harg2.eq_unread hf0; obtain rfl := harg3.eq_unread hf1
  sl_exec (disch := first | exact hc1 | exact hc2 | exact hc3 | exact hc4 | exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [HS0]
  · iexists _; isplitr
    swap; · iexact HS0
    ipureintro
    refine (read_rowStore _ _ _ _ _ (k0_off2_eq i)).trans ?_
    rw [hf5, read_rowLoad _ _ _ (i 0) (k0_off2_eq i), hf5, read_wholeLoad harg2 zero2, read_wholeLoad harg3 zero2]
  · iexists _; isplitr
    swap; · iexact HS1
    ipureintro
    refine (read_rowStore _ _ _ _ _ (k0_off3_eq i)).trans ?_
    rw [hf6, read_wholeLoad harg2 zero2, read_wholeLoad harg3 zero2]

end Cert.Kernel.Body

end
-- ==== Proof.KernelBody.RunC.lean ====
/-
  The tile body at a point with j = 0 and i > 0: row i of the row-minima scratch is stored afresh, row j of the column-minima scratch is lowered by this tile's column minima.
  The body is run once, symbolically, on whole memrefs: the two input blocks at their contents, the two scratch
  buffers at any contents. It ends with the inputs as they were and each scratch at its contents before with the
  one row the case stores replaced.
-/
import proofs.«130655_g82575041233285_cont_9to1c4b_482_3_alg».proof.Proof.KernelBody.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runC (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S8x1024 .f32) (harg5 : arg5.IsWhole) (arg6 : Memref sig .tc .vmem S8x1024 .f32) (harg6 : arg6.IsWhole)
    (hc1 : k0_cond1 i = 1#1) (hc2 : ¬k0_cond2 i = 1#1) (hc3 : ¬k0_cond3 i = 1#1) (hc4 : k0_cond4 i = 1#1) (hc5 : ¬k0_cond5 i = 1#1)
    (x0 x1 : Vec F S1024x128 .f32) (v0 v1 : Vec F S8x1024 .f32) (xi2 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare v0 ∗ owns (c : Thread nD τ) arg6 fullShare v1
        ∗ (iprop(owns (c : Thread nD τ) arg2 fullShare x0 ∗ owns (c : Thread nD τ) arg3 fullShare x1 ∗ owns (c : Thread nD τ) arg4 fullShare xi2
            ∗ owns (c : Thread nD τ) arg5 fullShare (setRow v0 (i 0).val (k0_pay5 x0 x1))
            ∗ owns (c : Thread nD τ) arg6 fullShare (setRow v1 (i 1).val (k0_pay8 x0 x1 (rowOf v1 (i 1))))) -∗ K ⟨⟩))
      ⊢ wp frame (wpE (defs₀ (F := F)) Variants.none c none) E (cc0__chamfer_tile i arg2 harg2 arg3 harg3 arg4 harg4 arg5 harg5 arg6 harg6) K := by
  simp only [cc0__chamfer_tile_eq_skeleton]; unfold cc0__chamfer_tile_skel
  simp only [k0_part1_eq_skeleton]
  unfold owns
  iintro ⟨⟨%f0, %hf0, H0⟩, ⟨%f1, %hf1, H1⟩, ⟨%f2, %hf2, H2⟩, ⟨%f5, %hf5, HS0⟩, ⟨%f6, %hf6, HS1⟩, Hk⟩
  obtain rfl := harg2.eq_unread hf0; obtain rfl := harg3.eq_unread hf1
  sl_exec (disch := first | exact hc1 | exact hc2 | exact hc3 | exact hc4 | exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [HS0]
  · iexists _; isplitr
    swap; · iexact HS0
    ipureintro
    refine (read_rowStore _ _ _ _ _ (k0_off1_eq i)).trans ?_
    rw [hf5, read_wholeLoad harg2 zero2, read_wholeLoad harg3 zero2]
  · iexists _; isplitr
    swap; · iexact HS1
    ipureintro
    refine (read_rowStore _ _ _ _ _ (k0_off4_eq i)).trans ?_
    rw [hf6, read_rowLoad _ _ _ (i 1) (k0_off4_eq i), hf6, read_wholeLoad harg2 zero2, read_wholeLoad harg3 zero2]

end Cert.Kernel.Body

end
-- ==== Proof.KernelBody.RunD.lean ====
/-
  The tile body at a point with j > 0 and i > 0 other than the last: both scratch rows are lowered by this tile's minima.
  The body is run once, symbolically, on whole memrefs: the two input blocks at their contents, the two scratch
  buffers at any contents. It ends with the inputs as they were and each scratch at its contents before with the
  one row the case stores replaced.
-/
import proofs.«130655_g82575041233285_cont_9to1c4b_482_3_alg».proof.Proof.KernelBody.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runD (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S8x1024 .f32) (harg5 : arg5.IsWhole) (arg6 : Memref sig .tc .vmem S8x1024 .f32) (harg6 : arg6.IsWhole)
    (hc1 : ¬k0_cond1 i = 1#1) (hc2 : k0_cond2 i = 1#1) (hc3 : ¬k0_cond3 i = 1#1) (hc4 : k0_cond4 i = 1#1) (hc5 : ¬k0_cond5 i = 1#1)
    (x0 x1 : Vec F S1024x128 .f32) (v0 v1 : Vec F S8x1024 .f32) (xi2 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare v0 ∗ owns (c : Thread nD τ) arg6 fullShare v1
        ∗ (iprop(owns (c : Thread nD τ) arg2 fullShare x0 ∗ owns (c : Thread nD τ) arg3 fullShare x1 ∗ owns (c : Thread nD τ) arg4 fullShare xi2
            ∗ owns (c : Thread nD τ) arg5 fullShare (setRow v0 (i 0).val (k0_pay6 x0 x1 (rowOf v0 (i 0))))
            ∗ owns (c : Thread nD τ) arg6 fullShare (setRow v1 (i 1).val (k0_pay8 x0 x1 (rowOf v1 (i 1))))) -∗ K ⟨⟩))
      ⊢ wp frame (wpE (defs₀ (F := F)) Variants.none c none) E (cc0__chamfer_tile i arg2 harg2 arg3 harg3 arg4 harg4 arg5 harg5 arg6 harg6) K := by
  simp only [cc0__chamfer_tile_eq_skeleton]; unfold cc0__chamfer_tile_skel
  simp only [k0_part1_eq_skeleton]
  unfold owns
  iintro ⟨⟨%f0, %hf0, H0⟩, ⟨%f1, %hf1, H1⟩, ⟨%f2, %hf2, H2⟩, ⟨%f5, %hf5, HS0⟩, ⟨%f6, %hf6, HS1⟩, Hk⟩
  obtain rfl := harg2.eq_unread hf0; obtain rfl := harg3.eq_unread hf1
  sl_exec (disch := first | exact hc1 | exact hc2 | exact hc3 | exact hc4 | exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [HS0]
  · iexists _; isplitr
    swap; · iexact HS0
    ipureintro
    refine (read_rowStore _ _ _ _ _ (k0_off2_eq i)).trans ?_
    rw [hf5, read_rowLoad _ _ _ (i 0) (k0_off2_eq i), hf5, read_wholeLoad harg2 zero2, read_wholeLoad harg3 zero2]
  · iexists _; isplitr
    swap; · iexact HS1
    ipureintro
    refine (read_rowStore _ _ _ _ _ (k0_off4_eq i)).trans ?_
    rw [hf6, read_rowLoad _ _ _ (i 1) (k0_off4_eq i), hf6, read_wholeLoad harg2 zero2, read_wholeLoad harg3 zero2]

end Cert.Kernel.Body

end
-- ==== Proof.KernelBody.RunE.lean ====
/-
  The tile body at the last grid point (i = j = 7): both scratch rows are lowered, then both scratch buffers are read whole and the sum of their sums is stored into the output block.
  The body is run once, symbolically, on whole memrefs: the two input blocks at their contents, the two scratch
  buffers at any contents. It ends with the inputs as they were and each scratch at its contents before with the
  one row the case stores replaced.
-/
import proofs.«130655_g82575041233285_cont_9to1c4b_482_3_alg».proof.Proof.KernelBody.RunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store of a whole block, read back: its payload. -/
theorem read_wholeStore {κ : Kind} {sp : Space} {S : Shape} (v : View sig κ sp S .f32) (f : v.ty.Contents (Elt F)) {off : Fin S.rank → ℕ}
    (hz : off = fun _ => 0) (inb : ∀ a, off a + S.size a ≤ S.size a) (w : Vec F S .f32) :
    v.read (Elt F) (v.writes (Elt F) f [(⟨Rect.unit (s := S) off S.size inb, w⟩ : View.Piece (Elt F) S .f32)]) = w := by
  subst hz; exact View.read_writes_whole v f w

/-- A load of a whole block reads the contents. -/
theorem read_wholeLoad' {κ : Kind} {sp : Space} {S : Shape} (v : View sig κ sp S .f32) (g : v.ty.Contents (Elt F)) {off : Fin S.rank → ℕ}
    (hz : off = fun _ => 0) (inb : ∀ a, off a + S.size a ≤ S.size a) :
    v.readAt (Elt F) (Rect.unit (s := S) off S.size inb).toLoadRect g = v.read (Elt F) g := by
  rw [View.readAt_eq_ld, View.ld_unit_zero hz]

set_option maxHeartbeats 4000000 in
theorem runE (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S8x1024 .f32) (harg5 : arg5.IsWhole) (arg6 : Memref sig .tc .vmem S8x1024 .f32) (harg6 : arg6.IsWhole)
    (hc1 : ¬k0_cond1 i = 1#1) (hc2 : k0_cond2 i = 1#1) (hc3 : ¬k0_cond3 i = 1#1) (hc4 : k0_cond4 i = 1#1) (hc5 : k0_cond5 i = 1#1)
    (x0 x1 : Vec F S1024x128 .f32) (v0 v1 : Vec F S8x1024 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare v0 ∗ owns (c : Thread nD τ) arg6 fullShare v1
        ∗ (iprop(owns (c : Thread nD τ) arg2 fullShare x0 ∗ owns (c : Thread nD τ) arg3 fullShare x1 ∗ owns (c : Thread nD τ) arg4 fullShare (k0_pay1 (setRow v0 (i 0).val (k0_pay6 x0 x1 (rowOf v0 (i 0)))) (setRow v1 (i 1).val (k0_pay8 x0 x1 (rowOf v1 (i 1)))))
            ∗ owns (c : Thread nD τ) arg5 fullShare (setRow v0 (i 0).val (k0_pay6 x0 x1 (rowOf v0 (i 0))))
            ∗ owns (c : Thread nD τ) arg6 fullShare (setRow v1 (i 1).val (k0_pay8 x0 x1 (rowOf v1 (i 1))))) -∗ K ⟨⟩))
      ⊢ wp frame (wpE (defs₀ (F := F)) Variants.none c none) E (cc0__chamfer_tile i arg2 harg2 arg3 harg3 arg4 harg4 arg5 harg5 arg6 harg6) K := by
  simp only [cc0__chamfer_tile_eq_skeleton]; unfold cc0__chamfer_tile_skel
  simp only [k0_part1_eq_skeleton]
  unfold owns
  iintro ⟨⟨%f0, %hf0, H0⟩, ⟨%f1, %hf1, H1⟩, ⟨%d2, %f2, -, H2⟩, ⟨%f5, %hf5, HS0⟩, ⟨%f6, %hf6, HS1⟩, Hk⟩
  obtain rfl := harg2.eq_unread hf0; obtain rfl := harg3.eq_unread hf1
  sl_exec (disch := first | exact hc1 | exact hc2 | exact hc3 | exact hc4 | exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (read_wholeStore _ _ zero2 _ _).trans ?_
    refine congrArg₂ (k0_pay1 (F := F)) ?_ ?_
    · refine (read_wholeLoad' arg5.view _ (off := ![0, 0]) zero2 _).trans ?_
      refine (read_rowStore _ _ _ _ _ (k0_off2_eq i)).trans ?_
      rw [hf5, read_rowLoad _ _ _ (i 0) (k0_off2_eq i), hf5, read_wholeLoad harg2 zero2, read_wholeLoad harg3 zero2]
    · refine (read_wholeLoad' arg6.view _ (off := ![0, 0]) zero2 _).trans ?_
      refine (read_rowStore _ _ _ _ _ (k0_off4_eq i)).trans ?_
      rw [hf6, read_rowLoad _ _ _ (i 1) (k0_off4_eq i), hf6, read_wholeLoad harg2 zero2, read_wholeLoad harg3 zero2]
  isplitl [HS0]
  · iexists _; isplitr
    swap; · iexact HS0
    ipureintro
    refine (read_rowStore _ _ _ _ _ (k0_off2_eq i)).trans ?_
    rw [hf5, read_rowLoad _ _ _ (i 0) (k0_off2_eq i), hf5, read_wholeLoad harg2 zero2, read_wholeLoad harg3 zero2]
  · iexists _; isplitr
    swap; · iexact HS1
    ipureintro
    refine (read_rowStore _ _ _ _ _ (k0_off4_eq i)).trans ?_
    rw [hf6, read_rowLoad _ _ _ (i 1) (k0_off4_eq i), hf6, read_wholeLoad harg2 zero2, read_wholeLoad harg3 zero2]

end Cert.Kernel.Body

end
-- ==== Proof.KernelBody.State.lean ====
/-
  What the two scratch buffers hold between grid points.

  Point t = 8 i + j of the 8 x 8 grid works on block i of the first array and block j of the second. Row i of the
  row-minima scratch is stored afresh with the tile's row minima at j = 0 and lowered by them at each later j;
  row j of the column-minima scratch is stored afresh at i = 0 and lowered at each later i. `rowSt i j` is row i
  after the point (i, j), `colSt j i` is row j of the other scratch after the point (i, j), both as the body's own
  arithmetic applied to the points' input blocks. Before point n, a row of the first scratch that some earlier
  point stored holds `rowSt i` at the last earlier point of its grid row, and a row of the second holds `colSt j`
  at the last earlier point of its grid column; rows no point has stored yet hold anything (`Inv`).
  After the last point every row has been stored, and the scratches are `fin0`, `fin1`.
-/
import proofs.«130655_g82575041233285_cont_9to1c4b_482_3_alg».proof.Proof.KernelBody.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem N_pos : 0 < cfg0.N := by rw [show cfg0.N = 64 from N_0]; norm_num

/-- The block of the first array, and of the second, that the n-th grid point works on. -/
def xb (c : Dev nD) (n : ℕ) : Vec F S1024x128 .f32 :=
  if h : n < cfg0.N then iblk m c 0 ⟨n, h⟩ else iblk m c 0 ⟨0, N_pos⟩
def yb (c : Dev nD) (n : ℕ) : Vec F S1024x128 .f32 :=
  if h : n < cfg0.N then iblk m c 1 ⟨n, h⟩ else iblk m c 1 ⟨0, N_pos⟩

theorem xb_eq (c : Dev nD) (t : Fin cfg0.N) : xb m c t.val = iblk m c 0 t := by
  unfold xb; rw [dif_pos t.isLt]
theorem yb_eq (c : Dev nD) (t : Fin cfg0.N) : yb m c t.val = iblk m c 1 t := by
  unfold yb; rw [dif_pos t.isLt]

/-- Row i of the row-minima scratch after the point (i, j). -/
def rowSt (c : Dev nD) (i : ℕ) : ℕ → Vec F S1x1024 .f32
  | 0 => k0_pay5 (xb m c (8 * i)) (yb m c (8 * i))
  | j + 1 => k0_pay6 (xb m c (8 * i + (j + 1))) (yb m c (8 * i + (j + 1))) (rowSt c i j)

/-- Row j of the column-minima scratch after the point (i, j). -/
def colSt (c : Dev nD) (j : ℕ) : ℕ → Vec F S1x1024 .f32
  | 0 => k0_pay7 (xb m c j) (yb m c j)
  | i + 1 => k0_pay8 (xb m c (8 * (i + 1) + j)) (yb m c (8 * (i + 1) + j)) (colSt c j i)

theorem rowSt_fresh (c : Dev nD) (n : ℕ) (hj : n % 8 = 0) :
    rowSt m c (n / 8) (n % 8) = k0_pay5 (xb m c n) (yb m c n) := by
  have e : 8 * (n / 8) = n := by omega
  rw [hj]; unfold rowSt; rw [e]

theorem rowSt_lower (c : Dev nD) (n : ℕ) (hj : ¬n % 8 = 0) :
    rowSt m c (n / 8) (n % 8) = k0_pay6 (xb m c n) (yb m c n) (rowSt m c (n / 8) (n % 8 - 1)) := by
  obtain ⟨k, hk⟩ : ∃ k, n % 8 = k + 1 := ⟨n % 8 - 1, by omega⟩
  have e : 8 * (n / 8) + (k + 1) = n := by omega
  rw [hk]; show k0_pay6 _ _ _ = _; rw [e]; rfl

theorem colSt_fresh (c : Dev nD) (n : ℕ) (hi : n < 8) :
    colSt m c (n % 8) (n / 8) = k0_pay7 (xb m c n) (yb m c n) := by
  have e0 : n / 8 = 0 := by omega
  have e1 : n % 8 = n := by omega
  rw [e0, e1]; rfl

theorem colSt_lower (c : Dev nD) (n : ℕ) (hi : ¬n < 8) :
    colSt m c (n % 8) (n / 8) = k0_pay8 (xb m c n) (yb m c n) (colSt m c (n % 8) (n / 8 - 1)) := by
  obtain ⟨k, hk⟩ : ∃ k, n / 8 = k + 1 := ⟨n / 8 - 1, by omega⟩
  have e : 8 * (k + 1) + n % 8 = n := by omega
  rw [hk]; show k0_pay8 _ _ _ = _; rw [e]; rfl

/-- The scratches before point n: every row some earlier point stored holds what its last store left. -/
def Inv (c : Dev nD) (n : ℕ) (v0 v1 : Vec F S8x1024 .f32) : Prop :=
  (∀ (i : Fin 8) (y : S1x1024.Idx), 8 * i.val < n → v0 (ix2 i (y 1)) = rowSt m c i.val (min (n - 1 - 8 * i.val) 7) y) ∧
  (∀ (j : Fin 8) (y : S1x1024.Idx), j.val < n → v1 (ix2 j (y 1)) = colSt m c j.val ((n - 1 - j.val) / 8) y)

theorem Inv_zero (c : Dev nD) (v0 v1 : Vec F S8x1024 .f32) : Inv m c 0 v0 v1 :=
  ⟨fun _ _ h => absurd h (Nat.not_lt_zero _), fun _ _ h => absurd h (Nat.not_lt_zero _)⟩

/-- Before a point with j > 0 the row it lowers holds what the point before left. -/
theorem Inv_row (c : Dev nD) (n : ℕ) (hn : n < 64) (v0 v1 : Vec F S8x1024 .f32) (h : Inv m c n v0 v1) (hj : ¬n % 8 = 0) (o : Fin 8)
    (ho : o.val = n / 8) : rowOf v0 o = rowSt m c (n / 8) (n % 8 - 1) := by
  funext y
  unfold rowOf
  rw [h.1 o y (by omega), ho]
  congr 1; omega

/-- Before a point with i > 0 the row of the second scratch it lowers holds what the point eight before left. -/
theorem Inv_col (c : Dev nD) (n : ℕ) (hn : n < 64) (v0 v1 : Vec F S8x1024 .f32) (h : Inv m c n v0 v1) (hi : ¬n < 8) (o : Fin 8)
    (ho : o.val = n % 8) : rowOf v1 o = colSt m c (n % 8) (n / 8 - 1) := by
  funext y
  unfold rowOf
  rw [h.2 o y (by omega), ho]
  congr 1; omega

/-- One point: its grid row's scratch row and its grid column's scratch row are replaced by the point's states. -/
theorem Inv_step (c : Dev nD) (n : ℕ) (hn : n < 64) (v0 v1 : Vec F S8x1024 .f32) (h : Inv m c n v0 v1) :
    Inv m c (n + 1) (setRow v0 (n / 8) (rowSt m c (n / 8) (n % 8))) (setRow v1 (n % 8) (colSt m c (n % 8) (n / 8))) := by
  refine ⟨fun i y hi => ?_, fun j y hj => ?_⟩
  · unfold setRow
    by_cases e : i.val = n / 8
    · rw [if_pos (show ((ix2 i (y 1) : S8x1024.Idx) 0).val = n / 8 from e)]
      rw [show (ix2 (0 : Fin 1) ((ix2 i (y 1) : S8x1024.Idx) 1) : S1x1024.Idx) = y from (idx_row_zero y).symm, e]
      congr 1; omega
    · rw [if_neg (show ¬((ix2 i (y 1) : S8x1024.Idx) 0).val = n / 8 from e)]
      rw [h.1 i y (by omega)]
      congr 1; omega
  · unfold setRow
    by_cases e : j.val = n % 8
    · rw [if_pos (show ((ix2 j (y 1) : S8x1024.Idx) 0).val = n % 8 from e)]
      rw [show (ix2 (0 : Fin 1) ((ix2 j (y 1) : S8x1024.Idx) 1) : S1x1024.Idx) = y from (idx_row_zero y).symm, e]
      congr 1; omega
    · rw [if_neg (show ¬((ix2 j (y 1) : S8x1024.Idx) 0).val = n % 8 from e)]
      rw [h.2 j y (by omega)]
      congr 1; omega

/-- The two scratches after the last point. -/
def fin0 (c : Dev nD) : Vec F S8x1024 .f32 := fun Y => rowSt m c (Y 0).val 7 (ix2 (0 : Fin 1) (Y 1))
def fin1 (c : Dev nD) : Vec F S8x1024 .f32 := fun Y => colSt m c (Y 0).val 7 (ix2 (0 : Fin 1) (Y 1))

/-- After all 64 points the invariant pins both scratches. -/
theorem Inv_last (c : Dev nD) (v0 v1 : Vec F S8x1024 .f32) (h : Inv m c 64 v0 v1) : v0 = fin0 m c ∧ v1 = fin1 m c := by
  refine ⟨funext fun Y => ?_, funext fun Y => ?_⟩
  · have hY := eq_ix2 Y
    have h8 : (Y 0).val < 8 := (Y 0).isLt
    have := h.1 ⟨(Y 0).val, h8⟩ (ix2 (0 : Fin 1) (Y 1)) (by show 8 * (Y 0).val < 64; omega)
    unfold fin0
    rw [show (min (64 - 1 - 8 * (Y 0).val) 7) = 7 from by omega] at this
    rw [← this]; exact congrArg v0 hY
  · have hY := eq_ix2 Y
    have h8 : (Y 0).val < 8 := (Y 0).isLt
    have := h.2 ⟨(Y 0).val, h8⟩ (ix2 (0 : Fin 1) (Y 1)) (by show (Y 0).val < 64; omega)
    unfold fin1
    rw [show ((64 - 1 - (Y 0).val) / 8) = 7 from by omega] at this
    rw [← this]; exact congrArg v1 hY

end Cert.Kernel.Body

end
-- ==== Proof.KernelBody.Frame.lean ====
/-
  The frame of the tiled Chamfer program, at any float instance.

  The proof data of its one pipeline: the arrays as the region finds them; after the body at a point each input's
  staging buffer at its block, the output's at the sum of the two final scratches' sums (it is stored, and written
  back, at the last point only); the region's invariant before point n holds the two scratch buffers at contents
  that satisfy the row-by-row description `Inv n`, and the generator register. At each point the body is one of
  five control cases, decided by t % 8 = 0, t < 8 and t = 63; each case's run replaces one row of each scratch by the
  point's state of it, which is one step of the invariant. Before the first point the invariant says nothing of the
  scratches' contents, and after the last it is given back as such.
-/
import proofs.«130655_g82575041233285_cont_9to1c4b_482_3_alg».proof.Proof.KernelBody.RunE
import proofs.«130655_g82575041233285_cont_9to1c4b_482_3_alg».proof.Proof.KernelBody.State

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- What the last point stores into the output block: the sum of the final row minima plus the sum of the final
    column minima, by the body's own arithmetic. -/
def outFinal (c : Dev nD) : Vec F S1x1 .f32 := k0_pay1 (fin0 m c) (fin1 m c)

/-- The region's invariant before point n. -/
def Phi (c : Dev nD) (n : ℕ) : sProp 𝕄 :=
  iprop(iprop(∃ v0 v1, ⌜Inv m c n v0 v1⌝ ∗ owns (c : Thread nD τ) sc0 fullShare v0 ∗ owns (c : Thread nD τ) sc1 fullShare v1) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outFinal m c
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outFinal m c := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The rows a point stores are the point's states -/

theorem W0_fresh (c : Dev nD) (t : Fin cfg0.N) (h1 : t.val % 8 = 0) :
    k0_pay5 (iblk m c 0 t) (iblk m c 1 t) = rowSt m c (t.val / 8) (t.val % 8) := by
  rw [rowSt_fresh m c t.val h1, xb_eq, yb_eq]

theorem W0_lower (c : Dev nD) (t : Fin cfg0.N) (v0 v1 : Vec F S8x1024 .f32) (hI : Inv m c t.val v0 v1) (h1 : ¬t.val % 8 = 0) :
    k0_pay6 (iblk m c 0 t) (iblk m c 1 t) (rowOf v0 ((grid0.coords t) 0)) = rowSt m c (t.val / 8) (t.val % 8) := by
  have hN : t.val < 64 := lt_of_lt_of_eq t.isLt (show cfg0.N = 64 from N_0)
  rw [rowSt_lower m c t.val h1, xb_eq, yb_eq, Inv_row m c t.val hN v0 v1 hI h1 ((grid0.coords t) 0) (coords0 t)]

theorem W1_fresh (c : Dev nD) (t : Fin cfg0.N) (h3 : t.val < 8) :
    k0_pay7 (iblk m c 0 t) (iblk m c 1 t) = colSt m c (t.val % 8) (t.val / 8) := by
  rw [colSt_fresh m c t.val h3, xb_eq, yb_eq]

theorem W1_lower (c : Dev nD) (t : Fin cfg0.N) (v0 v1 : Vec F S8x1024 .f32) (hI : Inv m c t.val v0 v1) (h3 : ¬t.val < 8) :
    k0_pay8 (iblk m c 0 t) (iblk m c 1 t) (rowOf v1 ((grid0.coords t) 1)) = colSt m c (t.val % 8) (t.val / 8) := by
  have hN : t.val < 64 := lt_of_lt_of_eq t.isLt (show cfg0.N = 64 from N_0)
  rw [colSt_lower m c t.val h3, xb_eq, yb_eq, Inv_col m c t.val hN v0 v1 hI h3 ((grid0.coords t) 1) (coords1 t)]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the point's residues say which control case it is in;
    the invariant hands the case's run the two scratches at contents satisfying `Inv t` and takes them back with one
    row of each replaced, which is `Inv (t + 1)`; at the last point all 64 points have stored, so the scratches the
    output's sum is taken of are the final ones. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  have hN : t.val < 64 := lt_of_lt_of_eq t.isLt (show cfg0.N = 64 from N_0)
  unfold Phi
  by_cases h5 : t.val = 63
  · have h1 : ¬t.val % 8 = 0 := by omega
    have h3 : ¬t.val < 8 := by omega
    rw [show (dats m 0 c).leavesExact 2 t = owns (c : Thread nD τ) (ms2 t) fullShare ((dats m 0 c).after 2 t) from by
      unfold Dat.leavesExact; rw [liveAt2 t h5], after2]
    iintro ⟨⟨⟨%v0, %v1, %hI, HS0, HS1⟩, Hg⟩, Ho, ⟨%d0, H0⟩, ⟨%d1, H1⟩, ⟨%d2, H2⟩⟩
    have hstep := Inv_step m c t.val hN v0 v1 hI
    have hnew : Inv m c (t.val + 1)
        (setRow v0 ((grid0.coords t) 0).val (k0_pay6 (iblk m c 0 t) (iblk m c 1 t) (rowOf v0 ((grid0.coords t) 0))))
        (setRow v1 ((grid0.coords t) 1).val (k0_pay8 (iblk m c 0 t) (iblk m c 1 t) (rowOf v1 ((grid0.coords t) 1)))) := by
      rw [W0_lower m c t v0 v1 hI h1, W1_lower m c t v0 v1 hI h3, coords0 t, coords1 t]
      exact hstep
    have hfin := Inv_last m c _ _ (show Inv m c 64 _ _ from (show t.val + 1 = 64 from by omega) ▸ hnew)
    iapply (runE c (grid0.coords t) (ms0 t) (hs0 t) (ms1 t) (hs1 t) (ms2 t) (hs2 t) sc0 (Memref.isWhole_whole _) sc1 (Memref.isWhole_whole _)
      (fun h => h1 ((hcond1 t).mp h)) ((hcond2 t).mpr h1) (fun h => h3 ((hcond3 t).mp h)) ((hcond4 t).mpr h3) ((hcond5 t).mpr h5)
      (iblk m c 0 t) (iblk m c 1 t) v0 v1 Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · iexists _, _; isplitr
        swap
        · isplitl [HS0]; · iexact HS0
          iexact HS1
        ipureintro
        exact hnew
      iexact Hg
    isplitl [Ho]; · iexact Ho
    isplitl [H0]; · iexact H0
    isplitl [H1]; · iexact H1
    unfold outFinal
    rw [← hfin.1, ← hfin.2]
    iexact H2
  · by_cases h1 : t.val % 8 = 0
    · by_cases h3 : t.val < 8
      · rw [Dat.leavesExact_idle (dats m 0 c) 2 t (idleAt2 t h5) (noFlush2 t h5)]
        iintro ⟨⟨⟨%v0, %v1, %hI, HS0, HS1⟩, Hg⟩, Ho, ⟨%d0, H0⟩, ⟨%d1, H1⟩, ⟨%d2, H2⟩⟩
        iapply (runA c (grid0.coords t) (ms0 t) (hs0 t) (ms1 t) (hs1 t) (ms2 t) (hs2 t) sc0 (Memref.isWhole_whole _) sc1 (Memref.isWhole_whole _)
          ((hcond1 t).mpr h1) (fun h => (hcond2 t).mp h h1) ((hcond3 t).mpr h3) (fun h => (hcond4 t).mp h h3) (fun h => h5 ((hcond5 t).mp h))
          (iblk m c 0 t) (iblk m c 1 t) v0 v1 ((dats m 0 c).before 2 t d2) Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [HS0 HS1 Hg]
        · isplitl [HS0 HS1]
          · iexists _, _; isplitr
            swap
            · isplitl [HS0]; · iexact HS0
              iexact HS1
            ipureintro
            rw [W0_fresh m c t h1, W1_fresh m c t h3, coords0 t, coords1 t]
            exact Inv_step m c t.val hN v0 v1 hI
          iexact Hg
        isplitl [Ho]; · iexact Ho
        isplitl [H0]; · iexact H0
        isplitl [H1]; · iexact H1
        iexists _; iexact H2
      · rw [Dat.leavesExact_idle (dats m 0 c) 2 t (idleAt2 t h5) (noFlush2 t h5)]
        iintro ⟨⟨⟨%v0, %v1, %hI, HS0, HS1⟩, Hg⟩, Ho, ⟨%d0, H0⟩, ⟨%d1, H1⟩, ⟨%d2, H2⟩⟩
        iapply (runC c (grid0.coords t) (ms0 t) (hs0 t) (ms1 t) (hs1 t) (ms2 t) (hs2 t) sc0 (Memref.isWhole_whole _) sc1 (Memref.isWhole_whole _)
          ((hcond1 t).mpr h1) (fun h => (hcond2 t).mp h h1) (fun h => h3 ((hcond3 t).mp h)) ((hcond4 t).mpr h3) (fun h => h5 ((hcond5 t).mp h))
          (iblk m c 0 t) (iblk m c 1 t) v0 v1 ((dats m 0 c).before 2 t d2) Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [HS0 HS1 Hg]
        · isplitl [HS0 HS1]
          · iexists _, _; isplitr
            swap
            · isplitl [HS0]; · iexact HS0
              iexact HS1
            ipureintro
            rw [W0_fresh m c t h1, W1_lower m c t v0 v1 hI h3, coords0 t, coords1 t]
            exact Inv_step m c t.val hN v0 v1 hI
          iexact Hg
        isplitl [Ho]; · iexact Ho
        isplitl [H0]; · iexact H0
        isplitl [H1]; · iexact H1
        iexists _; iexact H2
    · by_cases h3 : t.val < 8
      · rw [Dat.leavesExact_idle (dats m 0 c) 2 t (idleAt2 t h5) (noFlush2 t h5)]
        iintro ⟨⟨⟨%v0, %v1, %hI, HS0, HS1⟩, Hg⟩, Ho, ⟨%d0, H0⟩, ⟨%d1, H1⟩, ⟨%d2, H2⟩⟩
        iapply (runB c (grid0.coords t) (ms0 t) (hs0 t) (ms1 t) (hs1 t) (ms2 t) (hs2 t) sc0 (Memref.isWhole_whole _) sc1 (Memref.isWhole_whole _)
          (fun h => h1 ((hcond1 t).mp h)) ((hcond2 t).mpr h1) ((hcond3 t).mpr h3) (fun h => (hcond4 t).mp h h3) (fun h => h5 ((hcond5 t).mp h))
          (iblk m c 0 t) (iblk m c 1 t) v0 v1 ((dats m 0 c).before 2 t d2) Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [HS0 HS1 Hg]
        · isplitl [HS0 HS1]
          · iexists _, _; isplitr
            swap
            · isplitl [HS0]; · iexact HS0
              iexact HS1
            ipureintro
            rw [W0_lower m c t v0 v1 hI h1, W1_fresh m c t h3, coords0 t, coords1 t]
            exact Inv_step m c t.val hN v0 v1 hI
          iexact Hg
        isplitl [Ho]; · iexact Ho
        isplitl [H0]; · iexact H0
        isplitl [H1]; · iexact H1
        iexists _; iexact H2
      · rw [Dat.leavesExact_idle (dats m 0 c) 2 t (idleAt2 t h5) (noFlush2 t h5)]
        iintro ⟨⟨⟨%v0, %v1, %hI, HS0, HS1⟩, Hg⟩, Ho, ⟨%d0, H0⟩, ⟨%d1, H1⟩, ⟨%d2, H2⟩⟩
        iapply (runD c (grid0.coords t) (ms0 t) (hs0 t) (ms1 t) (hs1 t) (ms2 t) (hs2 t) sc0 (Memref.isWhole_whole _) sc1 (Memref.isWhole_whole _)
          (fun h => h1 ((hcond1 t).mp h)) ((hcond2 t).mpr h1) (fun h => h3 ((hcond3 t).mp h)) ((hcond4 t).mpr h3) (fun h => h5 ((hcond5 t).mp h))
          (iblk m c 0 t) (iblk m c 1 t) v0 v1 ((dats m 0 c).before 2 t d2) Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [HS0 HS1 Hg]
        · isplitl [HS0 HS1]
          · iexists _, _; isplitr
            swap
            · isplitl [HS0]; · iexact HS0
              iexact HS1
            ipureintro
            rw [W0_lower m c t v0 v1 hI h1, W1_lower m c t v0 v1 hI h3, coords0 t, coords1 t]
            exact Inv_step m c t.val hN v0 v1 hI
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is said of the scratches yet. -/
theorem hin (c : Dev nD) : Pipeline.ΦA spec0 c ⊢ (dats m 0 c).Φ 0 := by
  rw [show (dats m 0 c).Φ 0 = Phi m c 0 from rfl, PhiA_eq]
  unfold Phi
  iintro ⟨⟨⟨%d0, HS0⟩, ⟨%d1, HS1⟩⟩, Hg⟩
  isplitl [HS0 HS1]
  · iexists d0, d1; isplitr
    · ipureintro; exact Inv_zero m c d0 d1
    isplitl [HS0]; · iexact HS0
    iexact HS1
  iexact Hg

/-- After the last point the invariant gives the class's back: the scratches' named contents are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨⟨%v0, %v1, -, HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has every array of the pipeline at what the
    library computes from the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdealBody.Shared.lean ====
/-
  What the five control cases of the tile body share.

  The grid is 8 x 8, point t = 8 i + j. The body's five conditionals test j = 0, j > 0, i = 0, i > 0 and
  (i, j) = (7, 7); over the 64 points they hold exactly where t % 8 = 0, t % 8 ≠ 0, t < 8, 8 ≤ t and t = 63.
  The output window is stored, and written back, at the last point only; the two inputs are never idle.
  The two scratch buffers (the running row minima and the running column minima) are whole scoped buffers the
  pipeline does not stage: the region's invariant holds them, each at some contents, beside the generator register.
-/
import proofs.«130655_g82575041233285_cont_9to1c4b_482_3_alg».proof.Proof.Gen.KernelIdeal.Frame
import proofs.«130655_g82575041233285_cont_9to1c4b_482_3_alg».proof.Proof.Gen.KernelIdeal.Skeleton
import Idealize.ShloMosaic.Lib.WritesUnit
import Idealize.ShloMosaic.Lib.WholeRead
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditionals, decided over the grid -/

theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
theorem hcond2 : ∀ t : Fin cfg0.N, k0_cond2 (grid0.coords t) = 1#1 ↔ ¬t.val % 8 = 0 :=
  (by decide +kernel : ∀ t : Fin grid0.N, k0_cond2 (grid0.coords t) = 1#1 ↔ ¬t.val % 8 = 0)
theorem hcond3 : ∀ t : Fin cfg0.N, k0_cond3 (grid0.coords t) = 1#1 ↔ t.val < 8 :=
  (by decide +kernel : ∀ t : Fin grid0.N, k0_cond3 (grid0.coords t) = 1#1 ↔ t.val < 8)
theorem hcond4 : ∀ t : Fin cfg0.N, k0_cond4 (grid0.coords t) = 1#1 ↔ ¬t.val < 8 :=
  (by decide +kernel : ∀ t : Fin grid0.N, k0_cond4 (grid0.coords t) = 1#1 ↔ ¬t.val < 8)
theorem hcond5 : ∀ t : Fin cfg0.N, k0_cond5 (grid0.coords t) = 1#1 ↔ t.val = 63 :=
  (by decide +kernel : ∀ t : Fin grid0.N, k0_cond5 (grid0.coords t) = 1#1 ↔ t.val = 63)

/-- The grid coordinates of point t are (t / 8, t % 8). -/
theorem coords0 : ∀ t : Fin cfg0.N, ((grid0.coords t) 0).val = t.val / 8 :=
  (by decide +kernel : ∀ t : Fin grid0.N, ((grid0.coords t) 0).val = t.val / 8)
theorem coords1 : ∀ t : Fin cfg0.N, ((grid0.coords t) 1).val = t.val % 8 :=
  (by decide +kernel : ∀ t : Fin grid0.N, ((grid0.coords t) 1).val = t.val % 8)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
/-- Away from the last point the output window is idle and is not written back. -/
theorem idleAt2 : ∀ t : Fin cfg0.N, ¬t.val = 63 → cfg0.idle 2 (grid0.coords t) = true := by decide +kernel
theorem noFlush2 : ∀ t : Fin cfg0.N, ¬t.val = 63 → (cfg0.win 2).flush t = false := by decide +kernel
/-- At the last point it is stored. -/
theorem liveAt2 : ∀ t : Fin cfg0.N, t.val = 63 → cfg0.idle 2 (grid0.coords t) = false := by decide +kernel

/-! ## The memrefs the body is called with -/

abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
/-- The scratch of running row minima and the scratch of running column minima. -/
abbrev sc0 : Memref sig .tc .vmem S8x1024 .f32 := Memref.whole cc0_scratch0
abbrev sc1 : Memref sig .tc .vmem S8x1024 .f32 := Memref.whole cc0_scratch1
abbrev VS0 : View sig .tc .vmem S8x1024 .f32 := sc0.view
abbrev VS1 : View sig .tc .vmem S8x1024 .f32 := sc1.view

/-- The class invariant, with the two scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## Rows of an 8 x 1024 scratch -/

open Idealize.ShloMosaic.ValueIdx

/-- Row `o` of an 8 x 1024 array, as a 1 x 1024 array. -/
def rowOf (v : Vec F S8x1024 .f32) (o : Fin 8) : Vec F S1x1024 .f32 := fun y => v (ix2 o (y 1))

/-- The array `v` with row `o` replaced by the 1 x 1024 array `w`. -/
def setRow (v : Vec F S8x1024 .f32) (o : ℕ) (w : Vec F S1x1024 .f32) : Vec F S8x1024 .f32 :=
  fun Y => if (Y 0).val = o then w (ix2 (0 : Fin 1) (Y 1)) else v Y

/-- A 1 x 1024 index has row coordinate 0. -/
theorem idx_row_zero (y : S1x1024.Idx) : y = ix2 (0 : Fin 1) (y 1) := by
  have h := eq_ix2 y
  have h0 : (y 0 : Fin 1) = (0 : Fin 1) := Fin.ext (by
    have h1 : (y 0).val < 1 := (y 0).isLt
    show (y 0).val = 0
    omega)
  rw [h0] at h; exact h

/-- One store of a whole row at row offset `o`, read back: the contents before with that row replaced. -/
theorem read_rowStore {κ : Kind} {sp : Space} (v : View sig κ sp S8x1024 .f32) (f : v.ty.Contents (Elt F)) {off : Fin 2 → ℕ}
    (inb : ∀ a, off a + S1x1024.size a ≤ S8x1024.size a) (w : Vec F S1x1024 .f32) (o : ℕ) (hoff : off = ![o, 0]) :
    v.read (Elt F) (v.writes (Elt F) f [(⟨Rect.unit (s := S8x1024) off S1x1024.size inb, w⟩ : View.Piece (Elt F) S8x1024 .f32)])
      = setRow (v.read (Elt F) f) o w := by
  funext Y
  unfold setRow
  by_cases h : (Y 0).val = o
  · rw [if_pos h]
    exact View.read_writes_cons_rows_of_mem v f inb w [] Y (ix2 (0 : Fin 1) (Y 1)) hoff (by rw [h]; rfl) rfl
  · rw [if_neg h]
    rw [View.read_writes_cons_rows_of_not_mem v f inb w [] Y hoff (W := 1) rfl (by omega)]
    rfl

/-- A load of the whole row at row offset `o` reads that row of the contents. -/
theorem read_rowLoad {κ : Kind} {sp : Space} (v : View sig κ sp S8x1024 .f32) (f : v.ty.Contents (Elt F)) {off : Fin 2 → ℕ}
    (inb : ∀ a, off a + S1x1024.size a ≤ S8x1024.size a) (o : Fin 8) (hoff : off = ![o.val, 0]) :
    v.readAt (Elt F) (Rect.unit (s := S8x1024) off S1x1024.size inb).toLoadRect f = rowOf (v.read (Elt F) f) o := by
  subst hoff
  funext y
  unfold rowOf
  show v.read (Elt F) f ((Rect.unit (s := S8x1024) ![o.val, 0] S1x1024.size inb).emb y) = _
  refine congrArg _ (funext fun a => Fin.ext ?_)
  match a with
  | ⟨0, _⟩ =>
    show o.val + 1 * (y 0).val = o.val
    have : (y 0).val < 1 := (y 0).isLt
    omega
  | ⟨1, _⟩ =>
    show 0 + 1 * (y 1).val = (y 1).val
    omega

/-- A load of a whole block through a whole memref held at the raw contents that read `x` reads `x`. -/
theorem read_wholeLoad {S : Shape} {m : Memref sig .tc .vmem S .f32} (h : m.IsWhole) {off : Fin S.rank → ℕ} (hz : off = fun _ => 0)
    (inb : ∀ a, off a + S.size a ≤ S.size a) (x : Vec F S .f32) :
    m.view.readAt (Elt F) (Rect.unit (s := S) off S.size inb).toLoadRect (h.unread x) = x := by
  rw [View.readAt_eq_ld, h.read_unread, View.ld_unit_zero hz]

theorem zero2 : (![0, 0] : Fin 2 → ℕ) = fun _ => 0 := by
  funext a; match a with | ⟨0, _⟩ => rfl | ⟨1, _⟩ => rfl

end Cert.KernelIdeal.Body

end
-- ==== Proof.KernelIdealBody.RunA.lean ====
/-
  The tile body at the first grid point (j = 0 and i = 0): row i of the row-minima scratch and row j of the column-minima scratch are both stored afresh.
  The body is run once, symbolically, on whole memrefs: the two input blocks at their contents, the two scratch
  buffers at any contents. It ends with the inputs as they were and each scratch at its contents before with the
  one row the case stores replaced.
-/
import proofs.«130655_g82575041233285_cont_9to1c4b_482_3_alg».proof.Proof.KernelIdealBody.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runA (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S8x1024 .f32) (harg5 : arg5.IsWhole) (arg6 : Memref sig .tc .vmem S8x1024 .f32) (harg6 : arg6.IsWhole)
    (hc1 : k0_cond1 i = 1#1) (hc2 : ¬k0_cond2 i = 1#1) (hc3 : k0_cond3 i = 1#1) (hc4 : ¬k0_cond4 i = 1#1) (hc5 : ¬k0_cond5 i = 1#1)
    (x0 x1 : Vec F S1024x128 .f32) (v0 v1 : Vec F S8x1024 .f32) (xi2 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare v0 ∗ owns (c : Thread nD τ) arg6 fullShare v1
        ∗ (iprop(owns (c : Thread nD τ) arg2 fullShare x0 ∗ owns (c : Thread nD τ) arg3 fullShare x1 ∗ owns (c : Thread nD τ) arg4 fullShare xi2
            ∗ owns (c : Thread nD τ) arg5 fullShare (setRow v0 (i 0).val (k0_pay5 x0 x1))
            ∗ owns (c : Thread nD τ) arg6 fullShare (setRow v1 (i 1).val (k0_pay7 x0 x1))) -∗ K ⟨⟩))
      ⊢ wp frame (wpE (defs₀ (F := F)) Variants.none c none) E (cc0__chamfer_tile i arg2 harg2 arg3 harg3 arg4 harg4 arg5 harg5 arg6 harg6) K := by
  simp only [cc0__chamfer_tile_eq_skeleton]; unfold cc0__chamfer_tile_skel
  simp only [k0_part1_eq_skeleton]
  unfold owns
  iintro ⟨⟨%f0, %hf0, H0⟩, ⟨%f1, %hf1, H1⟩, ⟨%f2, %hf2, H2⟩, ⟨%f5, %hf5, HS0⟩, ⟨%f6, %hf6, HS1⟩, Hk⟩
  obtain rfl := harg2.eq_unread hf0; obtain rfl := harg3.eq_unread hf1
  sl_exec (disch := first | exact hc1 | exact hc2 | exact hc3 | exact hc4 | exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [HS0]
  · iexists _; isplitr
    swap; · iexact HS0
    ipureintro
    refine (read_rowStore _ _ _ _ _ (k0_off1_eq i)).trans ?_
    rw [hf5, read_wholeLoad harg2 zero2, read_wholeLoad harg3 zero2]
  · iexists _; isplitr
    swap; · iexact HS1
    ipureintro
    refine (read_rowStore _ _ _ _ _ (k0_off3_eq i)).trans ?_
    rw [hf6, read_wholeLoad harg2 zero2, read_wholeLoad harg3 zero2]

end Cert.KernelIdeal.Body

end
-- ==== Proof.KernelIdealBody.RunB.lean ====
/-
  The tile body at a point with j > 0 and i = 0: row i of the row-minima scratch is lowered by this tile's row minima, row j of the column-minima scratch is stored afresh.
  The body is run once, symbolically, on whole memrefs: the two input blocks at their contents, the two scratch
  buffers at any contents. It ends with the inputs as they were and each scratch at its contents before with the
  one row the case stores replaced.
-/
import proofs.«130655_g82575041233285_cont_9to1c4b_482_3_alg».proof.Proof.KernelIdealBody.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runB (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S8x1024 .f32) (harg5 : arg5.IsWhole) (arg6 : Memref sig .tc .vmem S8x1024 .f32) (harg6 : arg6.IsWhole)
    (hc1 : ¬k0_cond1 i = 1#1) (hc2 : k0_cond2 i = 1#1) (hc3 : k0_cond3 i = 1#1) (hc4 : ¬k0_cond4 i = 1#1) (hc5 : ¬k0_cond5 i = 1#1)
    (x0 x1 : Vec F S1024x128 .f32) (v0 v1 : Vec F S8x1024 .f32) (xi2 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare v0 ∗ owns (c : Thread nD τ) arg6 fullShare v1
        ∗ (iprop(owns (c : Thread nD τ) arg2 fullShare x0 ∗ owns (c : Thread nD τ) arg3 fullShare x1 ∗ owns (c : Thread nD τ) arg4 fullShare xi2
            ∗ owns (c : Thread nD τ) arg5 fullShare (setRow v0 (i 0).val (k0_pay6 x0 x1 (rowOf v0 (i 0))))
            ∗ owns (c : Thread nD τ) arg6 fullShare (setRow v1 (i 1).val (k0_pay7 x0 x1))) -∗ K ⟨⟩))
      ⊢ wp frame (wpE (defs₀ (F := F)) Variants.none c none) E (cc0__chamfer_tile i arg2 harg2 arg3 harg3 arg4 harg4 arg5 harg5 arg6 harg6) K := by
  simp only [cc0__chamfer_tile_eq_skeleton]; unfold cc0__chamfer_tile_skel
  simp only [k0_part1_eq_skeleton]
  unfold owns
  iintro ⟨⟨%f0, %hf0, H0⟩, ⟨%f1, %hf1, H1⟩, ⟨%f2, %hf2, H2⟩, ⟨%f5, %hf5, HS0⟩, ⟨%f6, %hf6, HS1⟩, Hk⟩
  obtain rfl := harg2.eq_unread hf0; obtain rfl := harg3.eq_unread hf1
  sl_exec (disch := first | exact hc1 | exact hc2 | exact hc3 | exact hc4 | exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [HS0]
  · iexists _; isplitr
    swap; · iexact HS0
    ipureintro
    refine (read_rowStore _ _ _ _ _ (k0_off2_eq i)).trans ?_
    rw [hf5, read_rowLoad _ _ _ (i 0) (k0_off2_eq i), hf5, read_wholeLoad harg2 zero2, read_wholeLoad harg3 zero2]
  · iexists _; isplitr
    swap; · iexact HS1
    ipureintro
    refine (read_rowStore _ _ _ _ _ (k0_off3_eq i)).trans ?_
    rw [hf6, read_wholeLoad harg2 zero2, read_wholeLoad harg3 zero2]

end Cert.KernelIdeal.Body

end
-- ==== Proof.KernelIdealBody.RunC.lean ====
/-
  The tile body at a point with j = 0 and i > 0: row i of the row-minima scratch is stored afresh, row j of the column-minima scratch is lowered by this tile's column minima.
  The body is run once, symbolically, on whole memrefs: the two input blocks at their contents, the two scratch
  buffers at any contents. It ends with the inputs as they were and each scratch at its contents before with the
  one row the case stores replaced.
-/
import proofs.«130655_g82575041233285_cont_9to1c4b_482_3_alg».proof.Proof.KernelIdealBody.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runC (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S8x1024 .f32) (harg5 : arg5.IsWhole) (arg6 : Memref sig .tc .vmem S8x1024 .f32) (harg6 : arg6.IsWhole)
    (hc1 : k0_cond1 i = 1#1) (hc2 : ¬k0_cond2 i = 1#1) (hc3 : ¬k0_cond3 i = 1#1) (hc4 : k0_cond4 i = 1#1) (hc5 : ¬k0_cond5 i = 1#1)
    (x0 x1 : Vec F S1024x128 .f32) (v0 v1 : Vec F S8x1024 .f32) (xi2 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare v0 ∗ owns (c : Thread nD τ) arg6 fullShare v1
        ∗ (iprop(owns (c : Thread nD τ) arg2 fullShare x0 ∗ owns (c : Thread nD τ) arg3 fullShare x1 ∗ owns (c : Thread nD τ) arg4 fullShare xi2
            ∗ owns (c : Thread nD τ) arg5 fullShare (setRow v0 (i 0).val (k0_pay5 x0 x1))
            ∗ owns (c : Thread nD τ) arg6 fullShare (setRow v1 (i 1).val (k0_pay8 x0 x1 (rowOf v1 (i 1))))) -∗ K ⟨⟩))
      ⊢ wp frame (wpE (defs₀ (F := F)) Variants.none c none) E (cc0__chamfer_tile i arg2 harg2 arg3 harg3 arg4 harg4 arg5 harg5 arg6 harg6) K := by
  simp only [cc0__chamfer_tile_eq_skeleton]; unfold cc0__chamfer_tile_skel
  simp only [k0_part1_eq_skeleton]
  unfold owns
  iintro ⟨⟨%f0, %hf0, H0⟩, ⟨%f1, %hf1, H1⟩, ⟨%f2, %hf2, H2⟩, ⟨%f5, %hf5, HS0⟩, ⟨%f6, %hf6, HS1⟩, Hk⟩
  obtain rfl := harg2.eq_unread hf0; obtain rfl := harg3.eq_unread hf1
  sl_exec (disch := first | exact hc1 | exact hc2 | exact hc3 | exact hc4 | exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [HS0]
  · iexists _; isplitr
    swap; · iexact HS0
    ipureintro
    refine (read_rowStore _ _ _ _ _ (k0_off1_eq i)).trans ?_
    rw [hf5, read_wholeLoad harg2 zero2, read_wholeLoad harg3 zero2]
  · iexists _; isplitr
    swap; · iexact HS1
    ipureintro
    refine (read_rowStore _ _ _ _ _ (k0_off4_eq i)).trans ?_
    rw [hf6, read_rowLoad _ _ _ (i 1) (k0_off4_eq i), hf6, read_wholeLoad harg2 zero2, read_wholeLoad harg3 zero2]

end Cert.KernelIdeal.Body

end
-- ==== Proof.KernelIdealBody.RunD.lean ====
/-
  The tile body at a point with j > 0 and i > 0 other than the last: both scratch rows are lowered by this tile's minima.
  The body is run once, symbolically, on whole memrefs: the two input blocks at their contents, the two scratch
  buffers at any contents. It ends with the inputs as they were and each scratch at its contents before with the
  one row the case stores replaced.
-/
import proofs.«130655_g82575041233285_cont_9to1c4b_482_3_alg».proof.Proof.KernelIdealBody.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runD (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S8x1024 .f32) (harg5 : arg5.IsWhole) (arg6 : Memref sig .tc .vmem S8x1024 .f32) (harg6 : arg6.IsWhole)
    (hc1 : ¬k0_cond1 i = 1#1) (hc2 : k0_cond2 i = 1#1) (hc3 : ¬k0_cond3 i = 1#1) (hc4 : k0_cond4 i = 1#1) (hc5 : ¬k0_cond5 i = 1#1)
    (x0 x1 : Vec F S1024x128 .f32) (v0 v1 : Vec F S8x1024 .f32) (xi2 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare v0 ∗ owns (c : Thread nD τ) arg6 fullShare v1
        ∗ (iprop(owns (c : Thread nD τ) arg2 fullShare x0 ∗ owns (c : Thread nD τ) arg3 fullShare x1 ∗ owns (c : Thread nD τ) arg4 fullShare xi2
            ∗ owns (c : Thread nD τ) arg5 fullShare (setRow v0 (i 0).val (k0_pay6 x0 x1 (rowOf v0 (i 0))))
            ∗ owns (c : Thread nD τ) arg6 fullShare (setRow v1 (i 1).val (k0_pay8 x0 x1 (rowOf v1 (i 1))))) -∗ K ⟨⟩))
      ⊢ wp frame (wpE (defs₀ (F := F)) Variants.none c none) E (cc0__chamfer_tile i arg2 harg2 arg3 harg3 arg4 harg4 arg5 harg5 arg6 harg6) K := by
  simp only [cc0__chamfer_tile_eq_skeleton]; unfold cc0__chamfer_tile_skel
  simp only [k0_part1_eq_skeleton]
  unfold owns
  iintro ⟨⟨%f0, %hf0, H0⟩, ⟨%f1, %hf1, H1⟩, ⟨%f2, %hf2, H2⟩, ⟨%f5, %hf5, HS0⟩, ⟨%f6, %hf6, HS1⟩, Hk⟩
  obtain rfl := harg2.eq_unread hf0; obtain rfl := harg3.eq_unread hf1
  sl_exec (disch := first | exact hc1 | exact hc2 | exact hc3 | exact hc4 | exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [HS0]
  · iexists _; isplitr
    swap; · iexact HS0
    ipureintro
    refine (read_rowStore _ _ _ _ _ (k0_off2_eq i)).trans ?_
    rw [hf5, read_rowLoad _ _ _ (i 0) (k0_off2_eq i), hf5, read_wholeLoad harg2 zero2, read_wholeLoad harg3 zero2]
  · iexists _; isplitr
    swap; · iexact HS1
    ipureintro
    refine (read_rowStore _ _ _ _ _ (k0_off4_eq i)).trans ?_
    rw [hf6, read_rowLoad _ _ _ (i 1) (k0_off4_eq i), hf6, read_wholeLoad harg2 zero2, read_wholeLoad harg3 zero2]

end Cert.KernelIdeal.Body

end
-- ==== Proof.KernelIdealBody.RunE.lean ====
/-
  The tile body at the last grid point (i = j = 7): both scratch rows are lowered, then both scratch buffers are read whole and the sum of their sums is stored into the output block.
  The body is run once, symbolically, on whole memrefs: the two input blocks at their contents, the two scratch
  buffers at any contents. It ends with the inputs as they were and each scratch at its contents before with the
  one row the case stores replaced.
-/
import proofs.«130655_g82575041233285_cont_9to1c4b_482_3_alg».proof.Proof.KernelIdealBody.RunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store of a whole block, read back: its payload. -/
theorem read_wholeStore {κ : Kind} {sp : Space} {S : Shape} (v : View sig κ sp S .f32) (f : v.ty.Contents (Elt F)) {off : Fin S.rank → ℕ}
    (hz : off = fun _ => 0) (inb : ∀ a, off a + S.size a ≤ S.size a) (w : Vec F S .f32) :
    v.read (Elt F) (v.writes (Elt F) f [(⟨Rect.unit (s := S) off S.size inb, w⟩ : View.Piece (Elt F) S .f32)]) = w := by
  subst hz; exact View.read_writes_whole v f w

/-- A load of a whole block reads the contents. -/
theorem read_wholeLoad' {κ : Kind} {sp : Space} {S : Shape} (v : View sig κ sp S .f32) (g : v.ty.Contents (Elt F)) {off : Fin S.rank → ℕ}
    (hz : off = fun _ => 0) (inb : ∀ a, off a + S.size a ≤ S.size a) :
    v.readAt (Elt F) (Rect.unit (s := S) off S.size inb).toLoadRect g = v.read (Elt F) g := by
  rw [View.readAt_eq_ld, View.ld_unit_zero hz]

set_option maxHeartbeats 4000000 in
theorem runE (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S8x1024 .f32) (harg5 : arg5.IsWhole) (arg6 : Memref sig .tc .vmem S8x1024 .f32) (harg6 : arg6.IsWhole)
    (hc1 : ¬k0_cond1 i = 1#1) (hc2 : k0_cond2 i = 1#1) (hc3 : ¬k0_cond3 i = 1#1) (hc4 : k0_cond4 i = 1#1) (hc5 : k0_cond5 i = 1#1)
    (x0 x1 : Vec F S1024x128 .f32) (v0 v1 : Vec F S8x1024 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare v0 ∗ owns (c : Thread nD τ) arg6 fullShare v1
        ∗ (iprop(owns (c : Thread nD τ) arg2 fullShare x0 ∗ owns (c : Thread nD τ) arg3 fullShare x1 ∗ owns (c : Thread nD τ) arg4 fullShare (k0_pay1 (setRow v0 (i 0).val (k0_pay6 x0 x1 (rowOf v0 (i 0)))) (setRow v1 (i 1).val (k0_pay8 x0 x1 (rowOf v1 (i 1)))))
            ∗ owns (c : Thread nD τ) arg5 fullShare (setRow v0 (i 0).val (k0_pay6 x0 x1 (rowOf v0 (i 0))))
            ∗ owns (c : Thread nD τ) arg6 fullShare (setRow v1 (i 1).val (k0_pay8 x0 x1 (rowOf v1 (i 1))))) -∗ K ⟨⟩))
      ⊢ wp frame (wpE (defs₀ (F := F)) Variants.none c none) E (cc0__chamfer_tile i arg2 harg2 arg3 harg3 arg4 harg4 arg5 harg5 arg6 harg6) K := by
  simp only [cc0__chamfer_tile_eq_skeleton]; unfold cc0__chamfer_tile_skel
  simp only [k0_part1_eq_skeleton]
  unfold owns
  iintro ⟨⟨%f0, %hf0, H0⟩, ⟨%f1, %hf1, H1⟩, ⟨%d2, %f2, -, H2⟩, ⟨%f5, %hf5, HS0⟩, ⟨%f6, %hf6, HS1⟩, Hk⟩
  obtain rfl := harg2.eq_unread hf0; obtain rfl := harg3.eq_unread hf1
  sl_exec (disch := first | exact hc1 | exact hc2 | exact hc3 | exact hc4 | exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (read_wholeStore _ _ zero2 _ _).trans ?_
    refine congrArg₂ (k0_pay1 (F := F)) ?_ ?_
    · refine (read_wholeLoad' arg5.view _ (off := ![0, 0]) zero2 _).trans ?_
      refine (read_rowStore _ _ _ _ _ (k0_off2_eq i)).trans ?_
      rw [hf5, read_rowLoad _ _ _ (i 0) (k0_off2_eq i), hf5, read_wholeLoad harg2 zero2, read_wholeLoad harg3 zero2]
    · refine (read_wholeLoad' arg6.view _ (off := ![0, 0]) zero2 _).trans ?_
      refine (read_rowStore _ _ _ _ _ (k0_off4_eq i)).trans ?_
      rw [hf6, read_rowLoad _ _ _ (i 1) (k0_off4_eq i), hf6, read_wholeLoad harg2 zero2, read_wholeLoad harg3 zero2]
  isplitl [HS0]
  · iexists _; isplitr
    swap; · iexact HS0
    ipureintro
    refine (read_rowStore _ _ _ _ _ (k0_off2_eq i)).trans ?_
    rw [hf5, read_rowLoad _ _ _ (i 0) (k0_off2_eq i), hf5, read_wholeLoad harg2 zero2, read_wholeLoad harg3 zero2]
  · iexists _; isplitr
    swap; · iexact HS1
    ipureintro
    refine (read_rowStore _ _ _ _ _ (k0_off4_eq i)).trans ?_
    rw [hf6, read_rowLoad _ _ _ (i 1) (k0_off4_eq i), hf6, read_wholeLoad harg2 zero2, read_wholeLoad harg3 zero2]

end Cert.KernelIdeal.Body

end
-- ==== Proof.KernelIdealBody.State.lean ====
/-
  What the two scratch buffers hold between grid points.

  Point t = 8 i + j of the 8 x 8 grid works on block i of the first array and block j of the second. Row i of the
  row-minima scratch is stored afresh with the tile's row minima at j = 0 and lowered by them at each later j;
  row j of the column-minima scratch is stored afresh at i = 0 and lowered at each later i. `rowSt i j` is row i
  after the point (i, j), `colSt j i` is row j of the other scratch after the point (i, j), both as the body's own
  arithmetic applied to the points' input blocks. Before point n, a row of the first scratch that some earlier
  point stored holds `rowSt i` at the last earlier point of its grid row, and a row of the second holds `colSt j`
  at the last earlier point of its grid column; rows no point has stored yet hold anything (`Inv`).
  After the last point every row has been stored, and the scratches are `fin0`, `fin1`.
-/
import proofs.«130655_g82575041233285_cont_9to1c4b_482_3_alg».proof.Proof.KernelIdealBody.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem N_pos : 0 < cfg0.N := by rw [show cfg0.N = 64 from N_0]; norm_num

/-- The block of the first array, and of the second, that the n-th grid point works on. -/
def xb (c : Dev nD) (n : ℕ) : Vec F S1024x128 .f32 :=
  if h : n < cfg0.N then iblk m c 0 ⟨n, h⟩ else iblk m c 0 ⟨0, N_pos⟩
def yb (c : Dev nD) (n : ℕ) : Vec F S1024x128 .f32 :=
  if h : n < cfg0.N then iblk m c 1 ⟨n, h⟩ else iblk m c 1 ⟨0, N_pos⟩

theorem xb_eq (c : Dev nD) (t : Fin cfg0.N) : xb m c t.val = iblk m c 0 t := by
  unfold xb; rw [dif_pos t.isLt]
theorem yb_eq (c : Dev nD) (t : Fin cfg0.N) : yb m c t.val = iblk m c 1 t := by
  unfold yb; rw [dif_pos t.isLt]

/-- Row i of the row-minima scratch after the point (i, j). -/
def rowSt (c : Dev nD) (i : ℕ) : ℕ → Vec F S1x1024 .f32
  | 0 => k0_pay5 (xb m c (8 * i)) (yb m c (8 * i))
  | j + 1 => k0_pay6 (xb m c (8 * i + (j + 1))) (yb m c (8 * i + (j + 1))) (rowSt c i j)

/-- Row j of the column-minima scratch after the point (i, j). -/
def colSt (c : Dev nD) (j : ℕ) : ℕ → Vec F S1x1024 .f32
  | 0 => k0_pay7 (xb m c j) (yb m c j)
  | i + 1 => k0_pay8 (xb m c (8 * (i + 1) + j)) (yb m c (8 * (i + 1) + j)) (colSt c j i)

theorem rowSt_fresh (c : Dev nD) (n : ℕ) (hj : n % 8 = 0) :
    rowSt m c (n / 8) (n % 8) = k0_pay5 (xb m c n) (yb m c n) := by
  have e : 8 * (n / 8) = n := by omega
  rw [hj]; unfold rowSt; rw [e]

theorem rowSt_lower (c : Dev nD) (n : ℕ) (hj : ¬n % 8 = 0) :
    rowSt m c (n / 8) (n % 8) = k0_pay6 (xb m c n) (yb m c n) (rowSt m c (n / 8) (n % 8 - 1)) := by
  obtain ⟨k, hk⟩ : ∃ k, n % 8 = k + 1 := ⟨n % 8 - 1, by omega⟩
  have e : 8 * (n / 8) + (k + 1) = n := by omega
  rw [hk]; show k0_pay6 _ _ _ = _; rw [e]; rfl

theorem colSt_fresh (c : Dev nD) (n : ℕ) (hi : n < 8) :
    colSt m c (n % 8) (n / 8) = k0_pay7 (xb m c n) (yb m c n) := by
  have e0 : n / 8 = 0 := by omega
  have e1 : n % 8 = n := by omega
  rw [e0, e1]; rfl

theorem colSt_lower (c : Dev nD) (n : ℕ) (hi : ¬n < 8) :
    colSt m c (n % 8) (n / 8) = k0_pay8 (xb m c n) (yb m c n) (colSt m c (n % 8) (n / 8 - 1)) := by
  obtain ⟨k, hk⟩ : ∃ k, n / 8 = k + 1 := ⟨n / 8 - 1, by omega⟩
  have e : 8 * (k + 1) + n % 8 = n := by omega
  rw [hk]; show k0_pay8 _ _ _ = _; rw [e]; rfl

/-- The scratches before point n: every row some earlier point stored holds what its last store left. -/
def Inv (c : Dev nD) (n : ℕ) (v0 v1 : Vec F S8x1024 .f32) : Prop :=
  (∀ (i : Fin 8) (y : S1x1024.Idx), 8 * i.val < n → v0 (ix2 i (y 1)) = rowSt m c i.val (min (n - 1 - 8 * i.val) 7) y) ∧
  (∀ (j : Fin 8) (y : S1x1024.Idx), j.val < n → v1 (ix2 j (y 1)) = colSt m c j.val ((n - 1 - j.val) / 8) y)

theorem Inv_zero (c : Dev nD) (v0 v1 : Vec F S8x1024 .f32) : Inv m c 0 v0 v1 :=
  ⟨fun _ _ h => absurd h (Nat.not_lt_zero _), fun _ _ h => absurd h (Nat.not_lt_zero _)⟩

/-- Before a point with j > 0 the row it lowers holds what the point before left. -/
theorem Inv_row (c : Dev nD) (n : ℕ) (hn : n < 64) (v0 v1 : Vec F S8x1024 .f32) (h : Inv m c n v0 v1) (hj : ¬n % 8 = 0) (o : Fin 8)
    (ho : o.val = n / 8) : rowOf v0 o = rowSt m c (n / 8) (n % 8 - 1) := by
  funext y
  unfold rowOf
  rw [h.1 o y (by omega), ho]
  congr 1; omega

/-- Before a point with i > 0 the row of the second scratch it lowers holds what the point eight before left. -/
theorem Inv_col (c : Dev nD) (n : ℕ) (hn : n < 64) (v0 v1 : Vec F S8x1024 .f32) (h : Inv m c n v0 v1) (hi : ¬n < 8) (o : Fin 8)
    (ho : o.val = n % 8) : rowOf v1 o = colSt m c (n % 8) (n / 8 - 1) := by
  funext y
  unfold rowOf
  rw [h.2 o y (by omega), ho]
  congr 1; omega

/-- One point: its grid row's scratch row and its grid column's scratch row are replaced by the point's states. -/
theorem Inv_step (c : Dev nD) (n : ℕ) (hn : n < 64) (v0 v1 : Vec F S8x1024 .f32) (h : Inv m c n v0 v1) :
    Inv m c (n + 1) (setRow v0 (n / 8) (rowSt m c (n / 8) (n % 8))) (setRow v1 (n % 8) (colSt m c (n % 8) (n / 8))) := by
  refine ⟨fun i y hi => ?_, fun j y hj => ?_⟩
  · unfold setRow
    by_cases e : i.val = n / 8
    · rw [if_pos (show ((ix2 i (y 1) : S8x1024.Idx) 0).val = n / 8 from e)]
      rw [show (ix2 (0 : Fin 1) ((ix2 i (y 1) : S8x1024.Idx) 1) : S1x1024.Idx) = y from (idx_row_zero y).symm, e]
      congr 1; omega
    · rw [if_neg (show ¬((ix2 i (y 1) : S8x1024.Idx) 0).val = n / 8 from e)]
      rw [h.1 i y (by omega)]
      congr 1; omega
  · unfold setRow
    by_cases e : j.val = n % 8
    · rw [if_pos (show ((ix2 j (y 1) : S8x1024.Idx) 0).val = n % 8 from e)]
      rw [show (ix2 (0 : Fin 1) ((ix2 j (y 1) : S8x1024.Idx) 1) : S1x1024.Idx) = y from (idx_row_zero y).symm, e]
      congr 1; omega
    · rw [if_neg (show ¬((ix2 j (y 1) : S8x1024.Idx) 0).val = n % 8 from e)]
      rw [h.2 j y (by omega)]
      congr 1; omega

/-- The two scratches after the last point. -/
def fin0 (c : Dev nD) : Vec F S8x1024 .f32 := fun Y => rowSt m c (Y 0).val 7 (ix2 (0 : Fin 1) (Y 1))
def fin1 (c : Dev nD) : Vec F S8x1024 .f32 := fun Y => colSt m c (Y 0).val 7 (ix2 (0 : Fin 1) (Y 1))

/-- After all 64 points the invariant pins both scratches. -/
theorem Inv_last (c : Dev nD) (v0 v1 : Vec F S8x1024 .f32) (h : Inv m c 64 v0 v1) : v0 = fin0 m c ∧ v1 = fin1 m c := by
  refine ⟨funext fun Y => ?_, funext fun Y => ?_⟩
  · have hY := eq_ix2 Y
    have h8 : (Y 0).val < 8 := (Y 0).isLt
    have := h.1 ⟨(Y 0).val, h8⟩ (ix2 (0 : Fin 1) (Y 1)) (by show 8 * (Y 0).val < 64; omega)
    unfold fin0
    rw [show (min (64 - 1 - 8 * (Y 0).val) 7) = 7 from by omega] at this
    rw [← this]; exact congrArg v0 hY
  · have hY := eq_ix2 Y
    have h8 : (Y 0).val < 8 := (Y 0).isLt
    have := h.2 ⟨(Y 0).val, h8⟩ (ix2 (0 : Fin 1) (Y 1)) (by show (Y 0).val < 64; omega)
    unfold fin1
    rw [show ((64 - 1 - (Y 0).val) / 8) = 7 from by omega] at this
    rw [← this]; exact congrArg v1 hY

end Cert.KernelIdeal.Body

end
-- ==== Proof.KernelIdealBody.Frame.lean ====
/-
  The frame of the tiled Chamfer program, at any float instance.

  The proof data of its one pipeline: the arrays as the region finds them; after the body at a point each input's
  staging buffer at its block, the output's at the sum of the two final scratches' sums (it is stored, and written
  back, at the last point only); the region's invariant before point n holds the two scratch buffers at contents
  that satisfy the row-by-row description `Inv n`, and the generator register. At each point the body is one of
  five control cases, decided by t % 8 = 0, t < 8 and t = 63; each case's run replaces one row of each scratch by the
  point's state of it, which is one step of the invariant. Before the first point the invariant says nothing of the
  scratches' contents, and after the last it is given back as such.
-/
import proofs.«130655_g82575041233285_cont_9to1c4b_482_3_alg».proof.Proof.KernelIdealBody.RunE
import proofs.«130655_g82575041233285_cont_9to1c4b_482_3_alg».proof.Proof.KernelIdealBody.State

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- What the last point stores into the output block: the sum of the final row minima plus the sum of the final
    column minima, by the body's own arithmetic. -/
def outFinal (c : Dev nD) : Vec F S1x1 .f32 := k0_pay1 (fin0 m c) (fin1 m c)

/-- The region's invariant before point n. -/
def Phi (c : Dev nD) (n : ℕ) : sProp 𝕄 :=
  iprop(iprop(∃ v0 v1, ⌜Inv m c n v0 v1⌝ ∗ owns (c : Thread nD τ) sc0 fullShare v0 ∗ owns (c : Thread nD τ) sc1 fullShare v1) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outFinal m c
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outFinal m c := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The rows a point stores are the point's states -/

theorem W0_fresh (c : Dev nD) (t : Fin cfg0.N) (h1 : t.val % 8 = 0) :
    k0_pay5 (iblk m c 0 t) (iblk m c 1 t) = rowSt m c (t.val / 8) (t.val % 8) := by
  rw [rowSt_fresh m c t.val h1, xb_eq, yb_eq]

theorem W0_lower (c : Dev nD) (t : Fin cfg0.N) (v0 v1 : Vec F S8x1024 .f32) (hI : Inv m c t.val v0 v1) (h1 : ¬t.val % 8 = 0) :
    k0_pay6 (iblk m c 0 t) (iblk m c 1 t) (rowOf v0 ((grid0.coords t) 0)) = rowSt m c (t.val / 8) (t.val % 8) := by
  have hN : t.val < 64 := lt_of_lt_of_eq t.isLt (show cfg0.N = 64 from N_0)
  rw [rowSt_lower m c t.val h1, xb_eq, yb_eq, Inv_row m c t.val hN v0 v1 hI h1 ((grid0.coords t) 0) (coords0 t)]

theorem W1_fresh (c : Dev nD) (t : Fin cfg0.N) (h3 : t.val < 8) :
    k0_pay7 (iblk m c 0 t) (iblk m c 1 t) = colSt m c (t.val % 8) (t.val / 8) := by
  rw [colSt_fresh m c t.val h3, xb_eq, yb_eq]

theorem W1_lower (c : Dev nD) (t : Fin cfg0.N) (v0 v1 : Vec F S8x1024 .f32) (hI : Inv m c t.val v0 v1) (h3 : ¬t.val < 8) :
    k0_pay8 (iblk m c 0 t) (iblk m c 1 t) (rowOf v1 ((grid0.coords t) 1)) = colSt m c (t.val % 8) (t.val / 8) := by
  have hN : t.val < 64 := lt_of_lt_of_eq t.isLt (show cfg0.N = 64 from N_0)
  rw [colSt_lower m c t.val h3, xb_eq, yb_eq, Inv_col m c t.val hN v0 v1 hI h3 ((grid0.coords t) 1) (coords1 t)]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the point's residues say which control case it is in;
    the invariant hands the case's run the two scratches at contents satisfying `Inv t` and takes them back with one
    row of each replaced, which is `Inv (t + 1)`; at the last point all 64 points have stored, so the scratches the
    output's sum is taken of are the final ones. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  have hN : t.val < 64 := lt_of_lt_of_eq t.isLt (show cfg0.N = 64 from N_0)
  unfold Phi
  by_cases h5 : t.val = 63
  · have h1 : ¬t.val % 8 = 0 := by omega
    have h3 : ¬t.val < 8 := by omega
    rw [show (dats m 0 c).leavesExact 2 t = owns (c : Thread nD τ) (ms2 t) fullShare ((dats m 0 c).after 2 t) from by
      unfold Dat.leavesExact; rw [liveAt2 t h5], after2]
    iintro ⟨⟨⟨%v0, %v1, %hI, HS0, HS1⟩, Hg⟩, Ho, ⟨%d0, H0⟩, ⟨%d1, H1⟩, ⟨%d2, H2⟩⟩
    have hstep := Inv_step m c t.val hN v0 v1 hI
    have hnew : Inv m c (t.val + 1)
        (setRow v0 ((grid0.coords t) 0).val (k0_pay6 (iblk m c 0 t) (iblk m c 1 t) (rowOf v0 ((grid0.coords t) 0))))
        (setRow v1 ((grid0.coords t) 1).val (k0_pay8 (iblk m c 0 t) (iblk m c 1 t) (rowOf v1 ((grid0.coords t) 1)))) := by
      rw [W0_lower m c t v0 v1 hI h1, W1_lower m c t v0 v1 hI h3, coords0 t, coords1 t]
      exact hstep
    have hfin := Inv_last m c _ _ (show Inv m c 64 _ _ from (show t.val + 1 = 64 from by omega) ▸ hnew)
    iapply (runE c (grid0.coords t) (ms0 t) (hs0 t) (ms1 t) (hs1 t) (ms2 t) (hs2 t) sc0 (Memref.isWhole_whole _) sc1 (Memref.isWhole_whole _)
      (fun h => h1 ((hcond1 t).mp h)) ((hcond2 t).mpr h1) (fun h => h3 ((hcond3 t).mp h)) ((hcond4 t).mpr h3) ((hcond5 t).mpr h5)
      (iblk m c 0 t) (iblk m c 1 t) v0 v1 Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · iexists _, _; isplitr
        swap
        · isplitl [HS0]; · iexact HS0
          iexact HS1
        ipureintro
        exact hnew
      iexact Hg
    isplitl [Ho]; · iexact Ho
    isplitl [H0]; · iexact H0
    isplitl [H1]; · iexact H1
    unfold outFinal
    rw [← hfin.1, ← hfin.2]
    iexact H2
  · by_cases h1 : t.val % 8 = 0
    · by_cases h3 : t.val < 8
      · rw [Dat.leavesExact_idle (dats m 0 c) 2 t (idleAt2 t h5) (noFlush2 t h5)]
        iintro ⟨⟨⟨%v0, %v1, %hI, HS0, HS1⟩, Hg⟩, Ho, ⟨%d0, H0⟩, ⟨%d1, H1⟩, ⟨%d2, H2⟩⟩
        iapply (runA c (grid0.coords t) (ms0 t) (hs0 t) (ms1 t) (hs1 t) (ms2 t) (hs2 t) sc0 (Memref.isWhole_whole _) sc1 (Memref.isWhole_whole _)
          ((hcond1 t).mpr h1) (fun h => (hcond2 t).mp h h1) ((hcond3 t).mpr h3) (fun h => (hcond4 t).mp h h3) (fun h => h5 ((hcond5 t).mp h))
          (iblk m c 0 t) (iblk m c 1 t) v0 v1 ((dats m 0 c).before 2 t d2) Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [HS0 HS1 Hg]
        · isplitl [HS0 HS1]
          · iexists _, _; isplitr
            swap
            · isplitl [HS0]; · iexact HS0
              iexact HS1
            ipureintro
            rw [W0_fresh m c t h1, W1_fresh m c t h3, coords0 t, coords1 t]
            exact Inv_step m c t.val hN v0 v1 hI
          iexact Hg
        isplitl [Ho]; · iexact Ho
        isplitl [H0]; · iexact H0
        isplitl [H1]; · iexact H1
        iexists _; iexact H2
      · rw [Dat.leavesExact_idle (dats m 0 c) 2 t (idleAt2 t h5) (noFlush2 t h5)]
        iintro ⟨⟨⟨%v0, %v1, %hI, HS0, HS1⟩, Hg⟩, Ho, ⟨%d0, H0⟩, ⟨%d1, H1⟩, ⟨%d2, H2⟩⟩
        iapply (runC c (grid0.coords t) (ms0 t) (hs0 t) (ms1 t) (hs1 t) (ms2 t) (hs2 t) sc0 (Memref.isWhole_whole _) sc1 (Memref.isWhole_whole _)
          ((hcond1 t).mpr h1) (fun h => (hcond2 t).mp h h1) (fun h => h3 ((hcond3 t).mp h)) ((hcond4 t).mpr h3) (fun h => h5 ((hcond5 t).mp h))
          (iblk m c 0 t) (iblk m c 1 t) v0 v1 ((dats m 0 c).before 2 t d2) Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [HS0 HS1 Hg]
        · isplitl [HS0 HS1]
          · iexists _, _; isplitr
            swap
            · isplitl [HS0]; · iexact HS0
              iexact HS1
            ipureintro
            rw [W0_fresh m c t h1, W1_lower m c t v0 v1 hI h3, coords0 t, coords1 t]
            exact Inv_step m c t.val hN v0 v1 hI
          iexact Hg
        isplitl [Ho]; · iexact Ho
        isplitl [H0]; · iexact H0
        isplitl [H1]; · iexact H1
        iexists _; iexact H2
    · by_cases h3 : t.val < 8
      · rw [Dat.leavesExact_idle (dats m 0 c) 2 t (idleAt2 t h5) (noFlush2 t h5)]
        iintro ⟨⟨⟨%v0, %v1, %hI, HS0, HS1⟩, Hg⟩, Ho, ⟨%d0, H0⟩, ⟨%d1, H1⟩, ⟨%d2, H2⟩⟩
        iapply (runB c (grid0.coords t) (ms0 t) (hs0 t) (ms1 t) (hs1 t) (ms2 t) (hs2 t) sc0 (Memref.isWhole_whole _) sc1 (Memref.isWhole_whole _)
          (fun h => h1 ((hcond1 t).mp h)) ((hcond2 t).mpr h1) ((hcond3 t).mpr h3) (fun h => (hcond4 t).mp h h3) (fun h => h5 ((hcond5 t).mp h))
          (iblk m c 0 t) (iblk m c 1 t) v0 v1 ((dats m 0 c).before 2 t d2) Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [HS0 HS1 Hg]
        · isplitl [HS0 HS1]
          · iexists _, _; isplitr
            swap
            · isplitl [HS0]; · iexact HS0
              iexact HS1
            ipureintro
            rw [W0_lower m c t v0 v1 hI h1, W1_fresh m c t h3, coords0 t, coords1 t]
            exact Inv_step m c t.val hN v0 v1 hI
          iexact Hg
        isplitl [Ho]; · iexact Ho
        isplitl [H0]; · iexact H0
        isplitl [H1]; · iexact H1
        iexists _; iexact H2
      · rw [Dat.leavesExact_idle (dats m 0 c) 2 t (idleAt2 t h5) (noFlush2 t h5)]
        iintro ⟨⟨⟨%v0, %v1, %hI, HS0, HS1⟩, Hg⟩, Ho, ⟨%d0, H0⟩, ⟨%d1, H1⟩, ⟨%d2, H2⟩⟩
        iapply (runD c (grid0.coords t) (ms0 t) (hs0 t) (ms1 t) (hs1 t) (ms2 t) (hs2 t) sc0 (Memref.isWhole_whole _) sc1 (Memref.isWhole_whole _)
          (fun h => h1 ((hcond1 t).mp h)) ((hcond2 t).mpr h1) (fun h => h3 ((hcond3 t).mp h)) ((hcond4 t).mpr h3) (fun h => h5 ((hcond5 t).mp h))
          (iblk m c 0 t) (iblk m c 1 t) v0 v1 ((dats m 0 c).before 2 t d2) Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [HS0 HS1 Hg]
        · isplitl [HS0 HS1]
          · iexists _, _; isplitr
            swap
            · isplitl [HS0]; · iexact HS0
              iexact HS1
            ipureintro
            rw [W0_lower m c t v0 v1 hI h1, W1_lower m c t v0 v1 hI h3, coords0 t, coords1 t]
            exact Inv_step m c t.val hN v0 v1 hI
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is said of the scratches yet. -/
theorem hin (c : Dev nD) : Pipeline.ΦA spec0 c ⊢ (dats m 0 c).Φ 0 := by
  rw [show (dats m 0 c).Φ 0 = Phi m c 0 from rfl, PhiA_eq]
  unfold Phi
  iintro ⟨⟨⟨%d0, HS0⟩, ⟨%d1, HS1⟩⟩, Hg⟩
  isplitl [HS0 HS1]
  · iexists d0, d1; isplitr
    · ipureintro; exact Inv_zero m c d0 d1
    isplitl [HS0]; · iexact HS0
    iexact HS1
  iexact Hg

/-- After the last point the invariant gives the class's back: the scratches' named contents are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨⟨%v0, %v1, -, HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has every array of the pipeline at what the
    library computes from the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KernelIdealBody.Tail.lean ====
/-
  The program's result after its one region: the host line that follows the region reshapes the one-entry output
  array to a scalar, so the result is that entry of the output array as the pipeline leaves it.
-/
import proofs.«130655_g82575041233285_cont_9to1c4b_482_3_alg».proof.Proof.Gen.KernelIdeal.Frame
import Idealize.ShloMosaic.Lib.Pipeline.Value
import Idealize.ShloMosaic.Lib.ValueIdx

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The program's result, a scalar, is the one entry of the output array as the pipeline leaves it. -/
theorem tail_result (m : (ℓ : Loc nD τ sig) → Buf (Elt F) ℓ)
    (dats : (p : Fin 1) → (c : Dev nD) → Pipeline.Dat τ (Elt F) Unit ℕ (UR sig nD τ) ℕ (cfgs p) c) (c : Dev nD) (i : S_.Idx) :
    Pipeline.afterTail₀ cfgs dats 0 (V0 m) [hostOps1] c main_v1 i
      = (dats 0 c).arrAt 2 cfg0.N (Idealize.ShloMosaic.ValueIdx.ix2 0 0) := by
  unfold Pipeline.afterTail₀
  show StableHlo.after hostOps1 _ (Proc.devRef .tc main_v1) i = _
  after_results
  rw [Pipeline.withArrays_arr spec0 launch0.win.arr_inj c _ _ 2]
  exact shapeCast_apply _ _ _ _ rfl

end Cert.KernelIdeal.Body

end
-- ==== Proof.KernelIdealBody.OutArray.lean ====
/-
  The output array after the run is the block the last grid point stores.

  The output is a 1 x 1 array and its window's block is the whole of it: the block index is (0, 0) at every grid point,
  so an element of the block sits in the array at its own coordinates, and reading the block of an array G of that shape
  gives G back. What a point writes back is what the body left in the output's buffer, and that is the same 1 x 1 array
  at every point. Only the last point, 63, writes back, and its block holds every index of the array (both coordinates
  of an index of a 1 x 1 array are 0). So the array ends holding that one value.
-/
import proofs.«130655_g82575041233285_cont_9to1c4b_482_3_alg».proof.Proof.KernelIdealBody.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt F) ℓ)

/-- The output window's block index is (0, 0) at every grid point. -/
theorem idx_out : ∀ t : Fin cfg0.N, win0_2.index t (0 : Fin 2) = 0 ∧ win0_2.index t (1 : Fin 2) = 0 :=
  (by decide +kernel : ∀ t : Fin grid0.N, _)

/-- What a point writes back is its block of the one 1 x 1 array the last point stores: the block is the whole array. -/
theorem flushed_out (c : Dev nD) (t : Fin cfg0.N) :
    (dats m 0 c).flushed 2 t = ((cfg0.win 2).blk t).view.read (Elt F) (outFinal m c) := by
  show (cfg0.win 2).cut (grid0.coords t) ((dats m 0 c).after 2 t) = _
  rw [after2]
  obtain ⟨e0, e1⟩ := idx_out t
  funext y
  show outFinal m c ((cfg0.win 2).xinj (grid0.coords t) y) = outFinal m c (((cfg0.win 2).blk t).view.emb y)
  refine congrArg _ ?_
  funext a
  apply Fin.ext
  match a with
  | ⟨0, _⟩ =>
    show (y 0).val = win0_2.index t (0 : Fin 2) * 1 + 1 * (y 0).val
    omega
  | ⟨1, _⟩ =>
    show (y 1).val = win0_2.index t (1 : Fin 2) * 1 + 1 * (y 1).val
    omega

/-- An index of the array is in point t's block iff each coordinate is in the block's range on its axis. -/
theorem mem_blk_out (t : Fin cfg0.N) (i : S1x1.Idx) :
    i ∈ ((cfg0.win 2).blk t).view.set
      ↔ ∀ a : Fin 2, win0_2.index t a * S1x1.size a ≤ (i a).val ∧ (i a).val < win0_2.index t a * S1x1.size a + S1x1.size a := by
  show i ∈ ((View.whole main_v0).slice (win0_2.rect t)).set ↔ _
  rw [View.set_slice_whole, Rect.mem_set_unit]
  exact Iff.rfl

/-- The output array after the run holds what the last point stores. -/
theorem arr_out (c : Dev nD) : (dats m 0 c).arrAt 2 cfg0.N = outFinal m c :=
  (dats m 0 c).arrAt_eq_of_cover 2 (outFinal m c) (fun t _ => flushed_out m c t) fun i => by
    have hN : (63 : Nat) < cfg0.N := by rw [show cfg0.N = 64 from N_0]; norm_num
    refine ⟨⟨63, hN⟩, (flush0_2 ⟨63, hN⟩).mpr rfl, ?_⟩
    obtain ⟨e0, e1⟩ := idx_out ⟨63, hN⟩
    rw [mem_blk_out]
    intro a
    match a with
    | ⟨0, _⟩ =>
      show win0_2.index ⟨63, hN⟩ (0 : Fin 2) * 1 ≤ (i 0).val ∧ (i 0).val < win0_2.index ⟨63, hN⟩ (0 : Fin 2) * 1 + 1
      have h0 : (i 0).val < 1 := (i 0).isLt
      omega
    | ⟨1, _⟩ =>
      show win0_2.index ⟨63, hN⟩ (1 : Fin 2) * 1 ≤ (i 1).val ∧ (i 1).val < win0_2.index ⟨63, hN⟩ (1 : Fin 2) * 1 + 1
      have h1 : (i 1).val < 1 := (i 1).isLt
      omega

end Cert.KernelIdeal.Body

end
-- ==== Proof.Spec.lean ====
/-
  The Chamfer sum as a function of the two point arrays, over the extended reals.

  For arrays X, Y of 8192 points in dimension 128, the squared distance of point a of X to point b of Y is
      D a b = max (|X a|² + |Y b|² - 2 · ⟨X a, Y b⟩) 0,
  and the loss is  ∑ₐ min_b D a b  +  ∑_b min_a D a b, each minimum a fold of `min` from +∞ (the float word
  0x7F800000, kept as written: both programs start their minima from it), the factor 2 the word 0x40000000.
  The same formulas are stated over any number of rows, so that a 1024-row block of an array and the whole array
  share them; `blockRows X i` is the i-th block of 1024 rows, and `accMin f j` is the running minimum
  min (f 0, …, f j) taken one term at a time, the way a tiled computation accumulates it.
-/
import Idealize.ShloMosaic.PureOps.Ideal
import Idealize.ShloMosaic.Lib.ValueIdx

noncomputable section

namespace Cert.Chamfer

open Idealize.ShloMosaic Idealize.ShloMosaic.ValueIdx

/-- The float word 2.0 read on the extended reals. -/
def two : EReal := Ideal.ofBits .f32 0x40000000#32
/-- The float word +∞ read on the extended reals: where every minimum starts. -/
def pinf : EReal := Ideal.ofBits .f32 0x7F800000#32

/-- |X a|²: the sum of the squares of row `a`. -/
def sqnOf {n : Nat} (X : (⟨2, ![n, 128]⟩ : Shape).Idx → EReal) (a : Fin n) : EReal :=
  ∑ k : Fin 128, X (ix2 a k) * X (ix2 a k)

/-- ⟨X a, Y b⟩: the inner product of row `a` of X and row `b` of Y. -/
def dotOf {n n' : Nat} (X : (⟨2, ![n, 128]⟩ : Shape).Idx → EReal) (Y : (⟨2, ![n', 128]⟩ : Shape).Idx → EReal)
    (a : Fin n) (b : Fin n') : EReal :=
  ∑ k : Fin 128, X (ix2 a k) * Y (ix2 b k)

/-- D a b = max (|X a|² + |Y b|² - 2 ⟨X a, Y b⟩) 0. -/
def distOf {n n' : Nat} (X : (⟨2, ![n, 128]⟩ : Shape).Idx → EReal) (Y : (⟨2, ![n', 128]⟩ : Shape).Idx → EReal)
    (a : Fin n) (b : Fin n') : EReal :=
  max (sqnOf X a + sqnOf Y b - two * dotOf X Y a b) 0

/-- min_b D a b, from +∞. -/
def rowMinOf {n n' : Nat} (X : (⟨2, ![n, 128]⟩ : Shape).Idx → EReal) (Y : (⟨2, ![n', 128]⟩ : Shape).Idx → EReal)
    (a : Fin n) : EReal :=
  (Finset.univ : Finset (Fin n')).fold min pinf (fun b => distOf X Y a b)

/-- min_a D a b, from +∞. -/
def colMinOf {n n' : Nat} (X : (⟨2, ![n, 128]⟩ : Shape).Idx → EReal) (Y : (⟨2, ![n', 128]⟩ : Shape).Idx → EReal)
    (b : Fin n') : EReal :=
  (Finset.univ : Finset (Fin n)).fold min pinf (fun a => distOf X Y a b)

/-- The Chamfer sum of two arrays of 8192 points. -/
def loss (X Y : (⟨2, ![8192, 128]⟩ : Shape).Idx → EReal) : EReal :=
  (∑ a : Fin 8192, rowMinOf X Y a) + ∑ b : Fin 8192, colMinOf X Y b

/-- Block `i` (of eight) of 1024 rows of an array of 8192 rows; `i` is read modulo 8. -/
def blockRows (X : (⟨2, ![8192, 128]⟩ : Shape).Idx → EReal) (i : Nat) : (⟨2, ![1024, 128]⟩ : Shape).Idx → EReal :=
  fun y => X (ix2 ⟨1024 * (i % 8) + (y 0).val, by have h : (y 0).val < 1024 := (y 0).isLt; have : i % 8 < 8 := Nat.mod_lt _ (by norm_num); omega⟩ (y 1))

/-- The running minimum min (f 0, …, f j), one term at a time. -/
def accMin (f : Nat → EReal) : Nat → EReal
  | 0 => f 0
  | j + 1 => min (accMin f j) (f (j + 1))

end Cert.Chamfer

end
-- ==== Proof.LibMinReduce.lean ====
/-
  Three readings at an index that hold for any shapes of their kind.

  A vector of length a viewed as a column [a, 1] has at (i, 0) the vector's entry i; a column [a, 1] copied along the
  rows of an [a, b] array has at (i, j) the column's entry i; and a minimum taken over one axis of an array of
  extended reals is, at each index of the result, the fold of `min`, started from the accumulator's value, over the
  entries along that axis.
-/
import Idealize.ShloMosaic.PureOps.Ideal.Laws
import Idealize.ShloMosaic.PureOps.Reduce
import Idealize.ShloMosaic.Lib.ValueIdx
import Idealize.ShloMosaic.Lib.Pipeline.Value

noncomputable section

namespace Idealize.ShloMosaic.ValueMinReduce

open Idealize.ShloMosaic Idealize.ShloMosaic.ValueIdx

section Layout
variable {α : Type}

/-- A vector of length `a` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-- A minimum-reduction of extended reals over one axis reads, at a result index, the fold of `min` from the
    accumulator's value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.ValueMinReduce

end
-- ==== Proof.KernelPay.lean ====
/-
  The arithmetic of the tile body, read at an index.

  For two blocks X, Y of 1024 rows (dimension 128) the body forms the 1024 × 1024 tile of squared distances
      D r c = max (|X r|² + |Y c|² - 2 · ⟨X r, Y c⟩) 0,
  its row minima  min_c D r c  and its column minima  min_r D r c  (each a fold of `min` from +∞), writes them as
  one row of a scratch array, either as they are or as the minimum with the row already there, and at the end adds up
  the two scratch arrays.  Each of these values is read here at an index and identified with the specification's
  `distOf`, `rowMinOf`, `colMinOf` and with plain double sums.
-/
import proofs.«130655_g82575041233285_cont_9to1c4b_482_3_alg».proof.Proof.Gen.KernelIdeal.Skeleton
import proofs.«130655_g82575041233285_cont_9to1c4b_482_3_alg».proof.Proof.Spec
import proofs.«130655_g82575041233285_cont_9to1c4b_482_3_alg».proof.Proof.LibMinReduce
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.KernelIdeal.PayValue

open Cert.KernelIdeal Cert.KernelIdeal.Gen Idealize.ShloMosaic Idealize.ShloMosaic.ValueIdx Idealize.ShloMosaic.ValueMinReduce Cert.Chamfer

/-! ## The tile of squared distances -/

/-- The lane sum of the squares of a block, at row `r`: |X r|². -/
theorem sqsum_apply (x : Vec Ideal S1024x128 .f32) (r : Fin 1024) :
    multiReduction (F := Ideal) .add [1] S1024 (mulf x x) 0x00000000#32 reduces_S1024x128_S1024 (.inl rfl) rfl (ix1 r)
      = sqnOf x r := by
  refine (Ideal.multiReduction_add_single (mulf x x) 0x00000000#32 reduces_S1024x128_S1024 (.inl rfl) rfl (ix1 r)).trans ?_
  unfold sqnOf
  refine Finset.sum_congr rfl fun k _ => ?_
  have e : reduces_S1024x128_S1024.lift (ix1 r) k = ix2 r k :=
    funext fun a => Fin.ext (by match a with | ⟨0, _⟩ => rfl | ⟨1, _⟩ => rfl)
  rw [e]
  rfl

theorem lhs_mm_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_mm_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_mm_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_mm_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The block product into a zero accumulator, at `(r, c)`: ⟨X r, Y c⟩. -/
theorem mm_apply (x0 x1 : Vec Ideal S1024x128 .f32) (r c : Fin 1024) :
    matmul (F := Ideal) (φ₁ := .f32) (φ₂ := .f32) dot_S1024x128_S1024x128_S1024x1024_1_1_0_0_n_n none x0 x1 (constant (F := Ideal) S1024x1024 .f32 0x00000000#32) (ix2 r c)
      = dotOf x0 x1 r c := by
  simp only [matmul]
  rw [Ideal.matmul_constant_zero_apply, ← Equiv.sum_comp (ValueIdx.contrEquiv1 dot_S1024x128_S1024x128_S1024x1024_1_1_0_0_n_n 128 rfl rfl).symm]
  unfold dotOf
  refine Finset.sum_congr rfl fun k _ => ?_
  have hk := ValueIdx.contrEquiv1_symm_val dot_S1024x128_S1024x128_S1024x1024_1_1_0_0_n_n 128 rfl rfl k
  have el : dot_S1024x128_S1024x128_S1024x1024_1_1_0_0_n_n.lhsIdx (ix2 r c) ((ValueIdx.contrEquiv1 dot_S1024x128_S1024x128_S1024x1024_1_1_0_0_n_n 128 rfl rfl).symm k) = ix2 r k := funext fun a => Fin.ext (by
    match a with
    | ⟨0, _⟩ => exact lhs_mm_0 _ _
    | ⟨1, _⟩ => exact (lhs_mm_1 _ _).trans hk)
  have er : dot_S1024x128_S1024x128_S1024x1024_1_1_0_0_n_n.rhsIdx (ix2 r c) ((ValueIdx.contrEquiv1 dot_S1024x128_S1024x128_S1024x1024_1_1_0_0_n_n 128 rfl rfl).symm k) = ix2 c k := funext fun a => Fin.ext (by
    match a with
    | ⟨0, _⟩ => exact rhs_mm_0 _ _
    | ⟨1, _⟩ => exact (rhs_mm_1 _ _).trans hk)
  rw [el, er]

/-- The tile of squared distances at `(r, c)`. -/
theorem pay2_apply (x0 x1 : Vec Ideal S1024x128 .f32) (r c : Fin 1024) :
    k0_pay2 (F := Ideal) x0 x1 (ix2 r c) = distOf x0 x1 r c := by
  unfold k0_pay2
  simp only [maximumf_apply, subf_apply, addf_apply, mulf_apply, broadcast_apply]
  rw [broadcastTo_a1_ab_apply, shapeCast_a_a1_apply, sqsum_apply, broadcastTo_1b_ab_apply, shapeCast_a_1a_apply, sqsum_apply, mm_apply]
  unfold distOf two
  show max (_ - Ideal.ofBits .f32 0x40000000#32 * _) (Ideal.ofBits .f32 0x00000000#32) = _
  rw [Ideal.ofBits_zero_f32]

/-! ## Row and column minima -/

/-- The row minima of the tile: min_c D r c, from +∞. -/
theorem pay3_apply (x0 x1 : Vec Ideal S1024x128 .f32) (r : Fin 1024) :
    k0_pay3 (F := Ideal) x0 x1 (ix1 r) = rowMinOf x0 x1 r := by
  unfold k0_pay3
  refine (multiReduction_minimumf_single (k0_pay2 (F := Ideal) x0 x1) 0x7F800000#32 reduces_S1024x1024_S1024 (.inl rfl) rfl (ix1 r)).trans ?_
  unfold rowMinOf pinf
  refine Finset.fold_congr fun b _ => ?_
  have e : reduces_S1024x1024_S1024.lift (ix1 r) b = ix2 r b :=
    funext fun a => Fin.ext (by match a with | ⟨0, _⟩ => rfl | ⟨1, _⟩ => rfl)
  show k0_pay2 (F := Ideal) x0 x1 (reduces_S1024x1024_S1024.lift (ix1 r) b) = _
  rw [e]
  exact pay2_apply x0 x1 r b

/-- The column minima of the tile: min_r D r c, from +∞. -/
theorem pay4_apply (x0 x1 : Vec Ideal S1024x128 .f32) (c : Fin 1024) :
    k0_pay4 (F := Ideal) x0 x1 (ix1 c) = colMinOf x0 x1 c := by
  unfold k0_pay4
  refine (multiReduction_minimumf_single (k0_pay2 (F := Ideal) x0 x1) 0x7F800000#32 reduces_S1024x1024_S1024_2 (.inl rfl) rfl (ix1 c)).trans ?_
  unfold colMinOf pinf
  refine Finset.fold_congr fun b _ => ?_
  have e : reduces_S1024x1024_S1024_2.lift (ix1 c) b = ix2 b c :=
    funext fun a => Fin.ext (by match a with | ⟨0, _⟩ => rfl | ⟨1, _⟩ => rfl)
  show k0_pay2 (F := Ideal) x0 x1 (reduces_S1024x1024_S1024_2.lift (ix1 c) b) = _
  rw [e]
  exact pay2_apply x0 x1 b c

/-! ## What is stored in the scratch rows -/

/-- The row minima as one row. -/
theorem pay5_apply (x0 x1 : Vec Ideal S1024x128 .f32) (r : Fin 1024) :
    k0_pay5 (F := Ideal) x0 x1 (ix2 0 r) = rowMinOf x0 x1 r := by
  unfold k0_pay5
  exact (shapeCast_a_1a_apply _ _ _ r).trans (pay3_apply x0 x1 r)

/-- The row minima folded into the row already held. -/
theorem pay6_apply (x0 x1 : Vec Ideal S1024x128 .f32) (v : Vec Ideal S1x1024 .f32) (r : Fin 1024) :
    k0_pay6 (F := Ideal) x0 x1 v (ix2 0 r) = min (v (ix2 0 r)) (rowMinOf x0 x1 r) := by
  unfold k0_pay6
  refine (shapeCast_a_1a_apply _ _ _ r).trans ?_
  rw [minimumf_apply, shapeCast_1a_a_apply, pay3_apply]

/-- The column minima as one row. -/
theorem pay7_apply (x0 x1 : Vec Ideal S1024x128 .f32) (c : Fin 1024) :
    k0_pay7 (F := Ideal) x0 x1 (ix2 0 c) = colMinOf x0 x1 c := by
  unfold k0_pay7
  exact (shapeCast_a_1a_apply _ _ _ c).trans (pay4_apply x0 x1 c)

/-- The column minima folded into the row already held. -/
theorem pay8_apply (x0 x1 : Vec Ideal S1024x128 .f32) (v : Vec Ideal S1x1024 .f32) (c : Fin 1024) :
    k0_pay8 (F := Ideal) x0 x1 v (ix2 0 c) = min (v (ix2 0 c)) (colMinOf x0 x1 c) := by
  unfold k0_pay8
  refine (shapeCast_a_1a_apply _ _ _ c).trans ?_
  rw [minimumf_apply, shapeCast_1a_a_apply, pay4_apply]

/-! ## The final sum -/

/-- The total of a scratch array: cast to `[1, 8, 1024]`, summed over its last two axes, and read at its one entry. -/
theorem total_apply (s : Vec Ideal S8x1024 .f32) :
    extractAt ![0, 0, 0] (shapeCast S1x1x1 (multiReduction (F := Ideal) .add [1, 2] S1 (shapeCast S1x8x1024 s shapeCasts_S8x1024_S1x8x1024) 0x00000000#32 reduces_S1x8x1024_S1 (.inl rfl) rfl) shapeCasts_S1_S1x1x1) inpos_S1x1x1_p0_0_0
      = ∑ i : Fin 8, ∑ r : Fin 1024, s (ix2 i r) := by
  unfold extractAt
  refine (shapeCast_apply _ shapeCasts_S1_S1x1x1 _ (ix1 (0 : Fin 1)) ?_).trans ?_
  · rw [Shape.rowMajor_val_one, Shape.rowMajor_val_three]; rfl
  refine (Ideal.multiReduction_add_total _ 0x00000000#32 reduces_S1x8x1024_S1 (fun b => by match b with | ⟨0, _⟩ => rfl) (.inl rfl) rfl (ix1 0)).trans ?_
  unfold shapeCast
  exact (Equiv.sum_comp (Shape.reshapeEquiv shapeCasts_S8x1024_S1x8x1024) s).trans (sum_idx2 s)

/-- The value written at the last grid point: the two scratch arrays' totals, added. -/
theorem pay1_apply (s0 s1 : Vec Ideal S8x1024 .f32) (y : S1x1.Idx) :
    k0_pay1 (F := Ideal) s0 s1 y = (∑ i : Fin 8, ∑ r : Fin 1024, s0 (ix2 i r)) + ∑ j : Fin 8, ∑ c : Fin 1024, s1 (ix2 j c) := by
  unfold k0_pay1
  refine (addf_apply _ _ y).trans ?_
  rw [broadcast_apply, broadcast_apply, total_apply, total_apply]

end Cert.KernelIdeal.PayValue

end
-- ==== Proof.Blocks.lean ====
/-
  The input blocks of the tiled computation are blocks of rows of the argument arrays.

  At grid point t = 8 i + j the first input block is rows 1024 i … 1024 i + 1023 of the first argument and the second
  input block is rows 1024 j … 1024 j + 1023 of the second argument, all 128 columns of each: a block's coordinate on an
  axis is (block index) × (block extent) + (coordinate inside the block), and the block indices at t are (t / 8, 0) and
  (t % 8, 0).
-/
import proofs.«130655_g82575041233285_cont_9to1c4b_482_3_alg».proof.Proof.Gen.KernelIdeal.Frame
import proofs.«130655_g82575041233285_cont_9to1c4b_482_3_alg».proof.Proof.Spec

set_option maxRecDepth 16384

noncomputable section

namespace Cert.KernelIdeal.BlockValue

open Cert.KernelIdeal Cert.KernelIdeal.Gen Idealize.ShloMosaic Idealize.ShloMosaic.TcCoe

variable (m : (ℓ : Loc nD τ sig) → Buf (Elt Ideal) ℓ) (c : Dev nD)

/-- The block indices of the two input windows at every grid point: (t / 8, 0) and (t % 8, 0). -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0 :=
  (by decide +kernel : ∀ t : Fin grid0.N, _)

/-- The first input block at point t is block t / 8 of the rows of the first argument. -/
theorem iblk0_eq (t : Fin cfg0.N) :
    (iblk (F := Ideal) m c 0 t : Vec Ideal S1024x128 .f32)
      = Cert.Chamfer.blockRows (m ((c : Thread nD τ).loc main_arg0)) (t.val / 8) := by
  obtain ⟨e0, e1, _, _⟩ := idx_facts t
  funext y
  show V m c main_arg0 (((cfg0.win 0).blk t).view.emb y) = _
  rw [V_main_arg0]
  unfold Cert.Chamfer.blockRows
  refine congrArg _ ?_
  funext a
  apply Fin.ext
  match a with
  | ⟨0, _⟩ =>
    show win0_0.index t (0 : Fin 2) * 1024 + 1 * (y 0).val = 1024 * (t.val / 8 % 8) + (y 0).val
    have ht : t.val < 64 := t.isLt
    omega
  | ⟨1, _⟩ =>
    show win0_0.index t (1 : Fin 2) * 128 + 1 * (y 1).val = (y 1).val
    omega

/-- The second input block at point t is block t % 8 of the rows of the second argument. -/
theorem iblk1_eq (t : Fin cfg0.N) :
    (iblk (F := Ideal) m c 1 t : Vec Ideal S1024x128 .f32)
      = Cert.Chamfer.blockRows (m ((c : Thread nD τ).loc main_arg1)) (t.val % 8) := by
  obtain ⟨_, _, e2, e3⟩ := idx_facts t
  funext y
  show V m c main_arg1 (((cfg0.win 1).blk t).view.emb y) = _
  rw [V_main_arg1]
  unfold Cert.Chamfer.blockRows
  refine congrArg _ ?_
  funext a
  apply Fin.ext
  match a with
  | ⟨0, _⟩ =>
    show win0_1.index t (0 : Fin 2) * 1024 + 1 * (y 0).val = 1024 * (t.val % 8 % 8) + (y 0).val
    omega
  | ⟨1, _⟩ =>
    show win0_1.index t (1 : Fin 2) * 128 + 1 * (y 1).val = (y 1).val
    omega

end Cert.KernelIdeal.BlockValue

end
-- ==== Proof.TileMin.lean ====
/-
  From the tiles to the whole array: the running minima a tiled computation keeps, summed, are the Chamfer sum.

  The 8192 points of an array are eight blocks of 1024; point `r` of block `i` is point `1024 i + r` of the array.
  A squared distance between a point of a block of X and a point of a block of Y is the squared distance between the
  two points of the whole arrays (both are the same sums over the same 128 coordinates of the same entries). A minimum
  is determined by its lower bounds: `c` is below a fold of `min` from `p` exactly when `c ≤ p` and `c` is below every
  term, and `c` is below a running minimum exactly when it is below each of its terms. So the running minimum over the
  eight blocks of the blocks' minima (each started from the same `p`) has the same lower bounds as the minimum over all
  8192 points, and is equal to it. The sums over (block, point in block) re-index to sums over the 8192 points through
  the bijection (i, r) ↦ 1024 i + r. Nothing here uses the value of +∞ or of any entry: only that `min` is the meet of
  a linear order and that addition is commutative and associative.
-/
import proofs.«130655_g82575041233285_cont_9to1c4b_482_3_alg».proof.Proof.Spec

noncomputable section

namespace Cert.Chamfer

open Idealize.ShloMosaic Idealize.ShloMosaic.ValueIdx

/-- Point `r` of block `i` (read modulo 8) of an array of 8192 points: the point `1024 (i mod 8) + r`. -/
def blkPt (i : Nat) (r : Fin 1024) : Fin 8192 :=
  ⟨1024 * (i % 8) + r.val, by
    have h : r.val < 1024 := r.isLt
    have : i % 8 < 8 := Nat.mod_lt _ (by norm_num)
    omega⟩

/-- (1) The lower bounds of a running minimum: `c ≤ min (f 0, …, f n)` iff `c ≤ f j` for every `j ≤ n`. -/
theorem le_accMin_iff (f : Nat → EReal) (c : EReal) (n : Nat) :
    c ≤ accMin f n ↔ ∀ j, j ≤ n → c ≤ f j := by
  induction n with
  | zero =>
    constructor
    · intro h j hj
      have hj0 : j = 0 := by omega
      subst hj0
      exact h
    · intro h
      exact h 0 le_rfl
  | succ n ih =>
    show c ≤ min (accMin f n) (f (n + 1)) ↔ _
    rw [le_min_iff, ih]
    constructor
    · rintro ⟨h1, h2⟩ j hj
      rcases Nat.lt_or_ge j (n + 1) with h | h
      · exact h1 j (by omega)
      · have hj1 : j = n + 1 := by omega
        subst hj1
        exact h2
    · intro h
      exact ⟨fun j hj => h j (by omega), h (n + 1) le_rfl⟩

/-- (2) The running minimum over the eight blocks of the blocks' minima, every one started from the same `p`, is the
    minimum over all 8192 points started from `p`. -/
theorem accMin_fold_blocks (p : EReal) (g : Fin 8192 → EReal) :
    accMin (fun j => (Finset.univ : Finset (Fin 1024)).fold min p (fun c => g (blkPt j c))) 7
      = (Finset.univ : Finset (Fin 8192)).fold min p g := by
  refine eq_of_forall_le_iff fun c => ?_
  rw [le_accMin_iff, Finset.le_fold_min]
  constructor
  · intro h
    refine ⟨((Finset.le_fold_min c).1 (h 0 (by norm_num))).1, fun b _ => ?_⟩
    have hb : b.val < 8192 := b.isLt
    have h1 := ((Finset.le_fold_min c).1 (h (b.val / 1024) (by omega))).2
      ⟨b.val % 1024, Nat.mod_lt _ (by norm_num)⟩ (Finset.mem_univ _)
    have e : blkPt (b.val / 1024) ⟨b.val % 1024, Nat.mod_lt _ (by norm_num)⟩ = b := by
      apply Fin.ext
      show 1024 * (b.val / 1024 % 8) + b.val % 1024 = b.val
      omega
    rwa [e] at h1
  · rintro ⟨hp, h⟩ j _
    exact (Finset.le_fold_min c).2 ⟨hp, fun x _ => h _ (Finset.mem_univ _)⟩

/-- (3) A squared distance between points of two blocks is the squared distance between the points of the arrays. -/
theorem distOf_blockRows (X Y : (⟨2, ![8192, 128]⟩ : Shape).Idx → EReal) (i j : Nat) (r c : Fin 1024) :
    distOf (blockRows X i) (blockRows Y j) r c = distOf X Y (blkPt i r) (blkPt j c) := rfl

/-- The running minimum of the tiles' row minima is the row minimum over the whole of Y. -/
theorem accMin_rowMin (X Y : (⟨2, ![8192, 128]⟩ : Shape).Idx → EReal) (i : Nat) (r : Fin 1024) :
    accMin (fun j => rowMinOf (blockRows X i) (blockRows Y j) r) 7 = rowMinOf X Y (blkPt i r) :=
  accMin_fold_blocks pinf (fun b => distOf X Y (blkPt i r) b)

/-- The running minimum of the tiles' column minima is the column minimum over the whole of X. -/
theorem accMin_colMin (X Y : (⟨2, ![8192, 128]⟩ : Shape).Idx → EReal) (j : Nat) (c : Fin 1024) :
    accMin (fun i => colMinOf (blockRows X i) (blockRows Y j) c) 7 = colMinOf X Y (blkPt j c) :=
  accMin_fold_blocks pinf (fun a => distOf X Y a (blkPt j c))

/-- The bijection (block, point in block) ↦ point: (i, r) ↦ 1024 i + r. -/
def blkEquiv : Fin 8 × Fin 1024 ≃ Fin 8192 where
  toFun q := blkPt q.1.val q.2
  invFun a := (⟨a.val / 1024, by have := a.isLt; omega⟩, ⟨a.val % 1024, Nat.mod_lt _ (by norm_num)⟩)
  left_inv q := by
    obtain ⟨⟨i, hi⟩, ⟨r, hr⟩⟩ := q
    refine Prod.ext (Fin.ext ?_) (Fin.ext ?_)
    · show (1024 * (i % 8) + r) / 1024 = i
      omega
    · show (1024 * (i % 8) + r) % 1024 = r
      omega
  right_inv a := by
    apply Fin.ext
    show 1024 * (a.val / 1024 % 8) + a.val % 1024 = a.val
    have := a.isLt
    omega

/-- (4) A sum over the blocks of the sums over each block's points is the sum over all 8192 points. -/
theorem sum_blocks (G : Fin 8192 → EReal) :
    ∑ i : Fin 8, ∑ r : Fin 1024, G (blkPt i.val r) = ∑ a : Fin 8192, G a := by
  rw [← Equiv.sum_comp blkEquiv G, Fintype.sum_prod_type]
  rfl

/-- The two arrays of running minima, summed, are the Chamfer sum. -/
theorem loss_of_tiles (X Y : (⟨2, ![8192, 128]⟩ : Shape).Idx → EReal) (R C : (⟨2, ![8, 1024]⟩ : Shape).Idx → EReal)
    (hR : ∀ (i : Fin 8) (r : Fin 1024),
      R (ix2 i r) = accMin (fun j => rowMinOf (blockRows X i.val) (blockRows Y j) r) 7)
    (hC : ∀ (j : Fin 8) (c : Fin 1024),
      C (ix2 j c) = accMin (fun i => colMinOf (blockRows X i) (blockRows Y j.val) c) 7) :
    (∑ i : Fin 8, ∑ r : Fin 1024, R (ix2 i r)) + (∑ j : Fin 8, ∑ c : Fin 1024, C (ix2 j c)) = loss X Y := by
  unfold loss
  rw [← sum_blocks (fun a => rowMinOf X Y a), ← sum_blocks (fun b => colMinOf X Y b)]
  congr 1
  · refine Finset.sum_congr rfl fun i _ => Finset.sum_congr rfl fun r _ => ?_
    rw [hR, accMin_rowMin]
  · refine Finset.sum_congr rfl fun j _ => Finset.sum_congr rfl fun c _ => ?_
    rw [hC, accMin_colMin]

end Cert.Chamfer

end
-- ==== Proof.KernelIdealBody.Final.lean ====
/-
  The value the last grid point writes is the Chamfer sum of the two argument arrays.

  Row i of the first scratch array, after the eight points (i, 0), …, (i, 7) of its grid row, holds at r the running
  minimum over j of the row minima of the tiles (block i of X, block j of Y): the first point stores the tile's row
  minima and each later point lowers the row by its own tile's. Row j of the second scratch array, after the eight
  points (0, j), …, (7, j) of its grid column, holds the running minimum over i of the tiles' column minima. Both by
  induction along the row (the column) of the grid, the point 8 i + j working on block i of X and block j of Y.
  The last point adds up the two scratch arrays; the running minima over the eight blocks are the minima over the
  whole arrays, and the double sums over (block, point in block) are the sums over all 8192 points.
-/
import proofs.«130655_g82575041233285_cont_9to1c4b_482_3_alg».proof.Proof.KernelIdealBody.State
import proofs.«130655_g82575041233285_cont_9to1c4b_482_3_alg».proof.Proof.KernelPay
import proofs.«130655_g82575041233285_cont_9to1c4b_482_3_alg».proof.Proof.Blocks
import proofs.«130655_g82575041233285_cont_9to1c4b_482_3_alg».proof.Proof.TileMin

noncomputable section

namespace Cert.KernelIdeal.FinalValue

open Cert.KernelIdeal Cert.KernelIdeal.Gen Cert.KernelIdeal.Body Cert.KernelIdeal.PayValue Cert.KernelIdeal.BlockValue
open Cert.Chamfer Idealize.ShloMosaic Idealize.ShloMosaic.TcCoe Idealize.ShloMosaic.ValueIdx

variable (m : (ℓ : Loc nD τ sig) → Buf (Elt Ideal) ℓ) (c : Dev nD)

/-- The first input block of the n-th grid point is block n / 8 of the rows of the first argument. -/
theorem xb_point (n : ℕ) (hn : n < 64) :
    xb m c n = blockRows (m ((c : Thread nD τ).loc main_arg0)) (n / 8) := by
  have hN : cfg0.N = 64 := N_0
  exact (xb_eq m c ⟨n, by rw [hN]; exact hn⟩).trans (iblk0_eq m c ⟨n, by rw [hN]; exact hn⟩)

/-- The second input block of the n-th grid point is block n % 8 of the rows of the second argument. -/
theorem yb_point (n : ℕ) (hn : n < 64) :
    yb m c n = blockRows (m ((c : Thread nD τ).loc main_arg1)) (n % 8) := by
  have hN : cfg0.N = 64 := N_0
  exact (yb_eq m c ⟨n, by rw [hN]; exact hn⟩).trans (iblk1_eq m c ⟨n, by rw [hN]; exact hn⟩)

/-- Row i of the first scratch array after the point (i, j): the running minimum, over the blocks 0 … j of the second
    argument, of the row minima of block i of the first argument against them. -/
theorem rowSt_eq (i : ℕ) (hi : i < 8) (r : Fin 1024) (j : ℕ) (hj : j ≤ 7) :
    rowSt m c i j (ix2 (0 : Fin 1) r)
      = accMin (fun j' => rowMinOf (blockRows (m ((c : Thread nD τ).loc main_arg0)) i)
          (blockRows (m ((c : Thread nD τ).loc main_arg1)) j') r) j := by
  induction j with
  | zero =>
    show k0_pay5 (xb m c (8 * i)) (yb m c (8 * i)) (ix2 (0 : Fin 1) r) = rowMinOf _ _ r
    rw [pay5_apply, xb_point m c (8 * i) (by omega), yb_point m c (8 * i) (by omega),
      show 8 * i / 8 = i by omega, show 8 * i % 8 = 0 by omega]
  | succ j ih =>
    show k0_pay6 (xb m c (8 * i + (j + 1))) (yb m c (8 * i + (j + 1))) (rowSt m c i j) (ix2 (0 : Fin 1) r)
      = min (accMin _ j) (rowMinOf _ _ r)
    rw [pay6_apply, ih (by omega), xb_point m c (8 * i + (j + 1)) (by omega), yb_point m c (8 * i + (j + 1)) (by omega),
      show (8 * i + (j + 1)) / 8 = i by omega, show (8 * i + (j + 1)) % 8 = j + 1 by omega]

/-- Row j of the second scratch array after the point (i, j): the running minimum, over the blocks 0 … i of the first
    argument, of the column minima of them against block j of the second argument. -/
theorem colSt_eq (j : ℕ) (hj : j < 8) (cc : Fin 1024) (i : ℕ) (hi : i ≤ 7) :
    colSt m c j i (ix2 (0 : Fin 1) cc)
      = accMin (fun i' => colMinOf (blockRows (m ((c : Thread nD τ).loc main_arg0)) i')
          (blockRows (m ((c : Thread nD τ).loc main_arg1)) j) cc) i := by
  induction i with
  | zero =>
    show k0_pay7 (xb m c j) (yb m c j) (ix2 (0 : Fin 1) cc) = colMinOf _ _ cc
    rw [pay7_apply, xb_point m c j (by omega), yb_point m c j (by omega),
      show j / 8 = 0 by omega, show j % 8 = j by omega]
  | succ i ih =>
    show k0_pay8 (xb m c (8 * (i + 1) + j)) (yb m c (8 * (i + 1) + j)) (colSt m c j i) (ix2 (0 : Fin 1) cc)
      = min (accMin _ i) (colMinOf _ _ cc)
    rw [pay8_apply, ih (by omega), xb_point m c (8 * (i + 1) + j) (by omega), yb_point m c (8 * (i + 1) + j) (by omega),
      show (8 * (i + 1) + j) / 8 = i + 1 by omega, show (8 * (i + 1) + j) % 8 = j by omega]

/-- The value written at the last grid point is the Chamfer sum of the two arguments. -/
theorem final_loss (y : S1x1.Idx) :
    k0_pay1 (F := Ideal) (fin0 m c) (fin1 m c) y
      = loss (m ((c : Thread nD τ).loc main_arg0)) (m ((c : Thread nD τ).loc main_arg1)) := by
  rw [pay1_apply]
  exact loss_of_tiles _ _ (fin0 m c) (fin1 m c)
    (fun i r => (show fin0 m c (ix2 i r) = rowSt m c i.val 7 (ix2 (0 : Fin 1) r) from rfl).trans
      (rowSt_eq m c i.val i.isLt r 7 le_rfl))
    (fun j cc => (show fin1 m c (ix2 j cc) = colSt m c j.val 7 (ix2 (0 : Fin 1) cc) from rfl).trans
      (colSt_eq m c j.val j.isLt cc 7 le_rfl))

end Cert.KernelIdeal.FinalValue

end
-- ==== Proof.RefStages.lean ====
/-
  The reference program's stages, read one operation at a time (the generated run and its read-at-an-index
  lemmas are imported here; the lemmas that identify the reference's result with the Chamfer sum are added below).
-/
import proofs.«130655_g82575041233285_cont_9to1c4b_482_3_alg».proof.Proof.Gen.ReferenceIdeal.Read
import proofs.«130655_g82575041233285_cont_9to1c4b_482_3_alg».proof.Proof.Spec

noncomputable section

namespace Cert.ReferenceIdeal.RefValue

open Cert.ReferenceIdeal Cert.ReferenceIdeal.Gen Cert.ReferenceIdeal.Read Idealize.ShloMosaic
  Idealize.ShloMosaic.ValueIdx Cert.Chamfer

/-- The two argument arrays' type: 8192 points in dimension 128, as extended reals. -/
abbrev Arr : Type := (⟨S8192x128, .f32⟩ : BufTy).Contents (Elt Ideal)

/-! ## Indices by coordinates -/

theorem idx_v1_ix (a : Fin 8192) (k : Fin 128) : idx_main_v1 (ix1 a) k = ix2 a k := by
  funext d; match d with | ⟨0, _⟩ => rfl | ⟨1, _⟩ => rfl

theorem idx_v3_ix (a : Fin 8192) (k : Fin 128) : idx_main_v3 (ix1 a) k = ix2 a k := by
  funext d; match d with | ⟨0, _⟩ => rfl | ⟨1, _⟩ => rfl

theorem idx_v4_v6_ix (a b : Fin 8192) : idx_main_v4 (idx_main_v6 (ix2 a b)) = ix1 a := by
  funext d; match d with | ⟨0, _⟩ => rfl

theorem idx_v5_v7_ix (a b : Fin 8192) : idx_main_v5 (idx_main_v7 (ix2 a b)) = ix1 b := by
  funext d; match d with | ⟨0, _⟩ => rfl

theorem lidx_v10_ix (a b : Fin 8192) (k : Fin 128) : lidx_main_v10 (ix2 a b) k = ix2 a k := by
  funext d; match d with | ⟨0, _⟩ => rfl | ⟨1, _⟩ => rfl

theorem idx_v9_ridx_v10_ix (a b : Fin 8192) (k : Fin 128) :
    idx_main_v9 (ridx_main_v10 (ix2 a b) k) = ix2 b k := by
  funext d; match d with | ⟨0, _⟩ => rfl | ⟨1, _⟩ => rfl

/-! ## The squared norms -/

/-- The first row sum: entry a is |X a|². -/
theorem v1_eq (x0 : Arr) (a : Fin 8192) : val_main_v1 (F := Ideal) x0 (ix1 a) = sqnOf x0 a := by
  rw [val_main_v1_apply, val_main_cst_apply, Ideal.ofBits_def, Ideal.ofBits_zero_f32, zero_add]
  unfold sqnOf
  refine Finset.sum_congr rfl fun k _ => ?_
  rw [val_main_v0_apply, Ideal.mulf_def, idx_v1_ix]

/-- The second row sum: entry b is |Y b|². -/
theorem v3_eq (x1 : Arr) (b : Fin 8192) : val_main_v3 (F := Ideal) x1 (ix1 b) = sqnOf x1 b := by
  rw [val_main_v3_apply, val_main_cst_0_apply, Ideal.ofBits_def, Ideal.ofBits_zero_f32, zero_add]
  unfold sqnOf
  refine Finset.sum_congr rfl fun k _ => ?_
  rw [val_main_v2_apply, Ideal.mulf_def, idx_v3_ix]

/-- The matrix product: entry (a, b) is ⟨X a, Y b⟩. -/
theorem v10_eq (x0 x1 : Arr) (a b : Fin 8192) :
    val_main_v10 (F := Ideal) x0 x1 (ix2 a b) = dotOf x0 x1 a b := by
  rw [val_main_v10_apply]
  unfold dotOf
  refine Finset.sum_congr rfl fun k _ => ?_
  rw [val_main_v9_apply, lidx_v10_ix, idx_v9_ridx_v10_ix]

/-- The pointwise distance stage: entry (a, b) is D a b. -/
theorem v15_eq (x0 x1 : Arr) (a b : Fin 8192) :
    val_main_v15 (F := Ideal) x0 x1 (ix2 a b) = distOf x0 x1 a b := by
  rw [val_main_v15_apply, Ideal.maximumf_def, val_main_v13_apply, Ideal.subf_def, val_main_v8_apply, Ideal.addf_def,
    val_main_v6_apply, val_main_v4_apply, idx_v4_v6_ix, v1_eq, val_main_v7_apply, val_main_v5_apply, idx_v5_v7_ix, v3_eq,
    val_main_v12_apply, Ideal.mulf_def, val_main_v11_apply, val_main_cst_1_apply, Ideal.ofBits_def, v10_eq,
    val_main_v14_apply, val_main_cst_2_apply, Ideal.ofBits_def, Ideal.ofBits_zero_f32]
  rfl

/-! ## The two minima -/

theorem reduces_d1 : S8192x8192.Reduces [1] S8192 := by decide
theorem reduces_d0 : S8192x8192.Reduces [0] S8192 := by decide

theorem lift_d1_ix (a : Fin 8192) (k : Fin 8192) : reduces_d1.lift (ix1 a) k = ix2 a k := by
  funext d; match d with | ⟨0, _⟩ => rfl | ⟨1, _⟩ => rfl

theorem lift_d0_ix (b : Fin 8192) (k : Fin 8192) : reduces_d0.lift (ix1 b) k = ix2 k b := by
  funext d; match d with | ⟨0, _⟩ => rfl | ⟨1, _⟩ => rfl

/-- The minimum over the second axis: entry a is min_b D a b, from +∞. -/
theorem v16_eq (x0 x1 : Arr) (a : Fin 8192) :
    val_main_v16 (F := Ideal) x0 x1 (ix1 a) = rowMinOf x0 x1 a := by
  unfold val_main_v16
  rw [Host.reduce_eq_fold_single _ _ _ reducesTo_S8192x8192_S8192_d1 reduces_d1 h_S_ (ix1 a)]
  unfold rowMinOf
  rw [val_main_cst_3_apply]
  refine Finset.fold_congr fun (k : Fin 8192) _ => ?_
  show val_main_v15 (F := Ideal) x0 x1 (reduces_d1.lift (ix1 a) k) = distOf x0 x1 a k
  rw [lift_d1_ix, v15_eq]

/-- The minimum over the first axis: entry b is min_a D a b, from +∞. -/
theorem v17_eq (x0 x1 : Arr) (b : Fin 8192) :
    val_main_v17 (F := Ideal) x0 x1 (ix1 b) = colMinOf x0 x1 b := by
  unfold val_main_v17
  rw [Host.reduce_eq_fold_single _ _ _ reducesTo_S8192x8192_S8192_d0 reduces_d0 h_S_ (ix1 b)]
  unfold colMinOf
  rw [val_main_cst_4_apply]
  refine Finset.fold_congr fun (k : Fin 8192) _ => ?_
  show val_main_v15 (F := Ideal) x0 x1 (reduces_d0.lift (ix1 b) k) = distOf x0 x1 k b
  rw [lift_d0_ix, v15_eq]

/-! ## The two sums and the tail -/

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

/-- The word 1.0 denotes the real 1. -/
theorem ofBits_one : Ideal.ofBits .f32 0x3F800000#32 = 1 := IdealRules.sign_bit.ideal_onePat .f32

/-- The sum of the row minima. -/
theorem v18_eq (x0 x1 : Arr) (i : S_.Idx) :
    val_main_v18 (F := Ideal) x0 x1 i = ∑ a : Fin 8192, rowMinOf x0 x1 a := by
  rw [val_main_v18_apply, val_main_cst_5_apply, Ideal.ofBits_def, Ideal.ofBits_zero_f32, zero_add, sum_idx1]
  exact Finset.sum_congr rfl fun a _ => v16_eq x0 x1 a

/-- The sum of the column minima. -/
theorem v19_eq (x0 x1 : Arr) (i : S_.Idx) :
    val_main_v19 (F := Ideal) x0 x1 i = ∑ b : Fin 8192, colMinOf x0 x1 b := by
  rw [val_main_v19_apply, val_main_cst_6_apply, Ideal.ofBits_def, Ideal.ofBits_zero_f32, zero_add, sum_idx1]
  exact Finset.sum_congr rfl fun b _ => v17_eq x0 x1 b

/-- The reference's last stage, as a function of the two argument arrays, is the constant array at the Chamfer sum. -/
theorem ref_loss (x0 x1 : (⟨Cert.ReferenceIdeal.S8192x128, .f32⟩ : BufTy).Contents (Elt Ideal)) :
    Cert.ReferenceIdeal.Read.val_main_v23 (F := Ideal) x0 x1 = fun _ => Cert.Chamfer.loss x0 x1 := by
  funext i
  rw [val_main_v23_apply, Ideal.hostDivf_def, val_main_cst_8_apply, Ideal.ofBits_def, ofBits_one,
    val_main_v22_apply, val_main_cst_7_apply, Ideal.ofBits_def, Ideal.ofBits_zero_f32, zero_add, sum_idx1,
    Fin.sum_univ_one, val_main_v21_apply, val_main_v20_apply, Ideal.addf_def, v18_eq, v19_eq,
    ← EReal.coe_one, Ideal.div_coe one_ne_zero, div_one, EReal.coe_one, mul_one]
  rfl

end Cert.ReferenceIdeal.RefValue

end
-- ==== Proof.lean ====
/-
  The tiled bidirectional Chamfer loss against its whole-array reference.

  For X, Y of 8192 points in dimension 128 both programs compute
      ∑ₐ min_b D a b + ∑_b min_a D a b,   D a b = max (|X a|² + |Y b|² - 2 ⟨X a, Y b⟩) 0,
  every minimum taken from +∞. The kernel walks an 8 x 8 grid of 1024 x 1024 tiles of D: at point (i, j) it lowers
  row i of a scratch of running row minima by the tile's row minima and row j of a scratch of running column minima
  by the tile's column minima, and at the last point stores the sum of both scratches' sums. The reference forms
  all of D and reduces it along each axis.

  The frames of the two kernel programs are one proof at any float instance: the region's invariant describes the
  two scratches row by row between points, and each of the body's five control cases is one step of it. On the
  extended reals the same run names the output: after the last point row i of the first scratch holds, at r, the
  running minimum over j of the tile row minima, which is the minimum over all of row 1024 i + r of D (a minimum of
  minima from the same starting value), and likewise for columns; summing over the 8 x 1024 entries is summing
  over the 8192 points. The reference's stages read index by index give the same sum, its final mean over one
  element being a division by 1. No finiteness of the inputs is used: only commutativity and associativity of +
  and the lattice laws of min.
-/
import proofs.«130655_g82575041233285_cont_9to1c4b_482_3_alg».proof.Defs
import proofs.«130655_g82575041233285_cont_9to1c4b_482_3_alg».proof.Proof.Gen.Kernel
import proofs.«130655_g82575041233285_cont_9to1c4b_482_3_alg».proof.Proof.Gen.KernelIdeal
import proofs.«130655_g82575041233285_cont_9to1c4b_482_3_alg».proof.Proof.Gen.ReferenceIdeal
import proofs.«130655_g82575041233285_cont_9to1c4b_482_3_alg».proof.Proof.Gen.Pre_finite_inputs
import proofs.«130655_g82575041233285_cont_9to1c4b_482_3_alg».proof.Proof.KernelBody.Frame
import proofs.«130655_g82575041233285_cont_9to1c4b_482_3_alg».proof.Proof.KernelIdealBody.Frame
import proofs.«130655_g82575041233285_cont_9to1c4b_482_3_alg».proof.Proof.KernelIdealBody.Tail
import proofs.«130655_g82575041233285_cont_9to1c4b_482_3_alg».proof.Proof.KernelIdealBody.OutArray
import proofs.«130655_g82575041233285_cont_9to1c4b_482_3_alg».proof.Proof.KernelIdealBody.Final
import proofs.«130655_g82575041233285_cont_9to1c4b_482_3_alg».proof.Proof.RefStages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read on the extended reals. -/
theorem preserves : Cert.preserves_Kernel_KernelIdeal := trivial

/-- Both idealized programs end with the Chamfer sum of the argument arrays in their result. -/
theorem algebraic : Cert.algebraic_KernelIdeal_ReferenceIdeal := by
  intro m ρ m' ρ' _ hagree
  refine ⟨fun c => fun _ => Cert.Chamfer.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Body.run_main (F := Ideal) m ρ)
    · funext i
      rw [(h c).2 Cert.KernelIdeal.main_v1 (by decide), Cert.KernelIdeal.Body.tail_result, Cert.KernelIdeal.Body.arr_out]
      exact Cert.KernelIdeal.FinalValue.final_loss m c _
    · exact ((h c).1 0).trans (((Cert.KernelIdeal.Body.dats m 0 c).arrAt_in 0 rfl _).trans
        ((Cert.KernelIdeal.Body.A_eq m c 0).trans (Cert.KernelIdeal.Gen.V_main_arg0 m c)))
    · exact ((h c).1 1).trans (((Cert.KernelIdeal.Body.dats m 0 c).arrAt_in 1 rfl _).trans
        ((Cert.KernelIdeal.Body.A_eq m c 1).trans (Cert.KernelIdeal.Gen.V_main_arg1 m c)))
  · refine (θ_run Cert.ReferenceIdeal.defs _ _).mono (fun _ h c => ⟨?_, (h c).2⟩) (Cert.ReferenceIdeal.Value.run (F := Ideal) m' ρ')
    rw [(h c).1, Cert.ReferenceIdeal.Read.val_main_v23_eq, Cert.ReferenceIdeal.RefValue.ref_loss, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
